-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S32x31 : Shape := ⟨2, ![32, 31]⟩
abbrev S128 : Shape := ⟨1, ![128]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S32x31 : S_.BroadcastsInDim S32x31 (![] : Fin 0 → Fin S32x31.rank)
  reducesTo_S32x31_S_d0_1 : S32x31.ReducesTo [0, 1] S_

variable [Facts]

def fn {F : FTy → Type} [FloatOps F] (main_arg0 : FVec F S128x16384 .f32) (main_arg1 : FVec F S128x16384 .f32) (main_arg2 : FVec F S32x31 .f32) (main_arg3 : IVec S128 32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S128x16384 .f32 := Host.absf main_arg1
  let main_cst_0 : FVec F S_ .f32 := constant S_ .f32 0x7F800000#32
  let main_v5 : FVec F S128x16384 .f32 := broadcastInDim S128x16384 ![] bcast_S_S128x16384 main_cst_0
  let main_v6 : IVec S128x16384 1 := cmpf .olt main_v4 main_v5
  let main_c_1 : IVec S_ 1 := constantI S_ 1 1#1
  let main_v7 : IVec S_ 1 := (fun x v => Host.reduce IntOp.andi x v reducesTo_S128x16384_S_d0_1 h_S_) main_v6 main_c_1
  let main_v8 : IVec S_ 1 := andi main_v3 main_v7
  let main_v9 : FVec F S32x31 .f32 := Host.absf main_arg2
  let main_cst_2 : FVec F S_ .f32 := constant S_ .f32 0x7F800000#32
  let main_v10 : FVec F S32x31 .f32 := broadcastInDim S32x31 ![] bcast_S_S32x31 main_cst_2
  let main_v11 : IVec S32x31 1 := cmpf .olt main_v9 main_v10
  let main_c_3 : IVec S_ 1 := constantI S_ 1 1#1
  let main_v12 : IVec S_ 1 := (fun x v => Host.reduce IntOp.andi x v reducesTo_S32x31_S_d0_1 h_S_) main_v11 main_c_3
  let main_v13 : IVec S_ 1 := andi main_v8 main_v12
  main_v13
-- ==== Kernel.lean ====
abbrev S128x16384 : Shape := ⟨2, ![128, 16384]⟩
abbrev S32x31 : Shape := ⟨2, ![32, 31]⟩
abbrev S128 : Shape := ⟨1, ![128]⟩
abbrev S128x31 : Shape := ⟨2, ![128, 31]⟩
abbrev S16x16384 : Shape := ⟨2, ![16, 16384]⟩
abbrev S16x31 : Shape := ⟨2, ![16, 31]⟩
abbrev S16x15 : Shape := ⟨2, ![16, 15]⟩
abbrev S16x16414 : Shape := ⟨2, ![16, 16414]⟩
abbrev S16 : Shape := ⟨1, ![16]⟩
abbrev S16x1 : Shape := ⟨2, ![16, 1]⟩
abbrev S_ : Shape := ⟨0, ![]⟩
abbrev S128x1 : Shape := ⟨2, ![128, 1]⟩

abbrev nBuf : Space → Nat
  | .hbm => 35
  | .vmem => 6
  | .smem => 0
  | _ => 0

abbrev bufTy : (tb : Table) → Fin (tcTables nBuf tb) → BufTy
  | .hbm, ⟨0, _⟩ => ⟨S128x16384, .f32⟩
  | .hbm, ⟨1, _⟩ => ⟨S128x16384, .f32⟩
  | .hbm, ⟨2, _⟩ => ⟨S32x31, .f32⟩
  | .hbm, ⟨3, _⟩ => ⟨S128, .i32⟩
  | .hbm, ⟨4, _⟩ => ⟨S128x31, .f32⟩
  | .hbm, ⟨5, _⟩ => ⟨S_, .i32⟩
  | .hbm, ⟨6, _⟩ => ⟨S128, .i32⟩
  | .hbm, ⟨7, _⟩ => ⟨S128, .i1⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S128x1, .i32⟩
  | .hbm, ⟨13, _⟩ => ⟨S128x31, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x31, .f32⟩
  | .hbm, ⟨21, _⟩ => ⟨S128x31, .f32⟩
  | .hbm, ⟨22, _⟩ => ⟨S128x31, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S128x31, .f32⟩
  | .hbm, ⟨27, _⟩ => ⟨S128x31, .f32⟩
  | .hbm, ⟨28, _⟩ => ⟨S128x31, .f32⟩
  | .hbm, ⟨29, _⟩ => ⟨S_, .f32⟩
  | .hbm, ⟨30, _⟩ => ⟨S128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S16x31, .f32⟩
  | .local _ .vmem, ⟨5, _⟩ => ⟨S16x31, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x31 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x16384_S16x16384_0_0 : ∀ a, (![0, 0] : Fin 2 → Nat) a + S16x16384.size a ≤ S16x16384.size a
  h_S16x16384 : 0 < S16x16384.numel
  concatenates_S16x15_S16x16384_S16x15_S16x16414_d1 : Shape.Concatenates [S16x15, S16x16384, S16x15] S16x16414 1
  reduces_S16x16384_S16 : S16x16384.Reduces [1] S16
  shapeCasts_S16_S16x1 : S16.ShapeCasts S16x1
  slices_S16x16414_o0_0_S16x16384 : S16x16414.Slices ![0, 0] S16x16384
  slices_S16x16414_o0_0_S16x1 : S16x16414.Slices ![0, 0] S16x1
  slices_S16x16414_o0_16384_S16x1 : S16x16414.Slices ![0, 16384] S16x1
  slices_S16x16414_o0_1_S16x16384 : S16x16414.Slices ![0, 1] S16x16384
  slices_S16x16414_o0_1_S16x1 : S16x16414.Slices ![0, 1] S16x1
  slices_S16x16414_o0_16385_S16x1 : S16x16414.Slices ![0, 16385] S16x1
  slices_S16x16414_o0_2_S16x16384 : S16x16414.Slices ![0, 2] S16x16384
  slices_S16x16414_o0_2_S16x1 : S16x16414.Slices ![0, 2] S16x1
  slices_S16x16414_o0_16386_S16x1 : S16x16414.Slices ![0, 16386] S16x1
  slices_S16x16414_o0_3_S16x16384 : S16x16414.Slices ![0, 3] S16x16384
  slices_S16x16414_o0_3_S16x1 : S16x16414.Slices ![0, 3] S16x1
  slices_S16x16414_o0_16387_S16x1 : S16x16414.Slices ![0, 16387] S16x1
  slices_S16x16414_o0_4_S16x16384 : S16x16414.Slices ![0, 4] S16x16384
  slices_S16x16414_o0_4_S16x1 : S16x16414.Slices ![0, 4] S16x1
  slices_S16x16414_o0_16388_S16x1 : S16x16414.Slices ![0, 16388] S16x1
  slices_S16x16414_o0_5_S16x16384 : S16x16414.Slices ![0, 5] S16x16384
  slices_S16x16414_o0_5_S16x1 : S16x16414.Slices ![0, 5] S16x1
  slices_S16x16414_o0_16389_S16x1 : S16x16414.Slices ![0, 16389] S16x1
  slices_S16x16414_o0_6_S16x16384 : S16x16414.Slices ![0, 6] S16x16384
  slices_S16x16414_o0_6_S16x1 : S16x16414.Slices ![0, 6] S16x1
  slices_S16x16414_o0_16390_S16x1 : S16x16414.Slices ![0, 16390] S16x1
  slices_S16x16414_o0_7_S16x16384 : S16x16414.Slices ![0, 7] S16x16384
  slices_S16x16414_o0_7_S16x1 : S16x16414.Slices ![0, 7] S16x1
  slices_S16x16414_o0_16391_S16x1 : S16x16414.Slices ![0, 16391] S16x1
  slices_S16x16414_o0_8_S16x16384 : S16x16414.Slices ![0, 8] S16x16384
  slices_S16x16414_o0_8_S16x1 : S16x16414.Slices ![0, 8] S16x1
  slices_S16x16414_o0_16392_S16x1 : S16x16414.Slices ![0, 16392] S16x1
  slices_S16x16414_o0_9_S16x16384 : S16x16414.Slices ![0, 9] S16x16384
  slices_S16x16414_o0_9_S16x1 : S16x16414.Slices ![0, 9] S16x1
  slices_S16x16414_o0_16393_S16x1 : S16x16414.Slices ![0, 16393] S16x1
  slices_S16x16414_o0_10_S16x16384 : S16x16414.Slices ![0, 10] S16x16384
  slices_S16x16414_o0_10_S16x1 : S16x16414.Slices ![0, 10] S16x1
  slices_S16x16414_o0_16394_S16x1 : S16x16414.Slices ![0, 16394] S16x1
  slices_S16x16414_o0_11_S16x16384 : S16x16414.Slices ![0, 11] S16x16384
  slices_S16x16414_o0_11_S16x1 : S16x16414.Slices ![0, 11] S16x1
  slices_S16x16414_o0_16395_S16x1 : S16x16414.Slices ![0, 16395] S16x1
  slices_S16x16414_o0_12_S16x16384 : S16x16414.Slices ![0, 12] S16x16384
  slices_S16x16414_o0_12_S16x1 : S16x16414.Slices ![0, 12] S16x1
  slices_S16x16414_o0_16396_S16x1 : S16x16414.Slices ![0, 16396] S16x1
  slices_S16x16414_o0_13_S16x16384 : S16x16414.Slices ![0, 13] S16x16384
  slices_S16x16414_o0_13_S16x1 : S16x16414.Slices ![0, 13] S16x1
  slices_S16x16414_o0_16397_S16x1 : S16x16414.Slices ![0, 16397] S16x1
  slices_S16x16414_o0_14_S16x16384 : S16x16414.Slices ![0, 14] S16x16384
  slices_S16x16414_o0_14_S16x1 : S16x16414.Slices ![0, 14] S16x1
  slices_S16x16414_o0_16398_S16x1 : S16x16414.Slices ![0, 16398] S16x1
  slices_S16x16414_o0_15_S16x16384 : S16x16414.Slices ![0, 15] S16x16384
  slices_S16x16414_o0_15_S16x1 : S16x16414.Slices ![0, 15] S16x1
  slices_S16x16414_o0_16399_S16x1 : S16x16414.Slices ![0, 16399] S16x1
  slices_S16x16414_o0_16_S16x16384 : S16x16414.Slices ![0, 16] S16x16384
  slices_S16x16414_o0_16_S16x1 : S16x16414.Slices ![0, 16] S16x1
  slices_S16x16414_o0_16400_S16x1 : S16x16414.Slices ![0, 16400] S16x1
  slices_S16x16414_o0_17_S16x16384 : S16x16414.Slices ![0, 17] S16x16384
  slices_S16x16414_o0_17_S16x1 : S16x16414.Slices ![0, 17] S16x1
  slices_S16x16414_o0_16401_S16x1 : S16x16414.Slices ![0, 16401] S16x1
  slices_S16x16414_o0_18_S16x16384 : S16x16414.Slices ![0, 18] S16x16384
  slices_S16x16414_o0_18_S16x1 : S16x16414.Slices ![0, 18] S16x1
  slices_S16x16414_o0_16402_S16x1 : S16x16414.Slices ![0, 16402] S16x1
  slices_S16x16414_o0_19_S16x16384 : S16x16414.Slices ![0, 19] S16x16384
  slices_S16x16414_o0_19_S16x1 : S16x16414.Slices ![0, 19] S16x1
  slices_S16x16414_o0_16403_S16x1 : S16x16414.Slices ![0, 16403] S16x1
  slices_S16x16414_o0_20_S16x16384 : S16x16414.Slices ![0, 20] S16x16384
  slices_S16x16414_o0_20_S16x1 : S16x16414.Slices ![0, 20] S16x1
  slices_S16x16414_o0_16404_S16x1 : S16x16414.Slices ![0, 16404] S16x1
  slices_S16x16414_o0_21_S16x16384 : S16x16414.Slices ![0, 21] S16x16384
  slices_S16x16414_o0_21_S16x1 : S16x16414.Slices ![0, 21] S16x1
  slices_S16x16414_o0_16405_S16x1 : S16x16414.Slices ![0, 16405] S16x1
  slices_S16x16414_o0_22_S16x16384 : S16x16414.Slices ![0, 22] S16x16384
  slices_S16x16414_o0_22_S16x1 : S16x16414.Slices ![0, 22] S16x1
  slices_S16x16414_o0_16406_S16x1 : S16x16414.Slices ![0, 16406] S16x1
  slices_S16x16414_o0_23_S16x16384 : S16x16414.Slices ![0, 23] S16x16384
  slices_S16x16414_o0_23_S16x1 : S16x16414.Slices ![0, 23] S16x1
  slices_S16x16414_o0_16407_S16x1 : S16x16414.Slices ![0, 16407] S16x1
  slices_S16x16414_o0_24_S16x16384 : S16x16414.Slices ![0, 24] S16x16384
  slices_S16x16414_o0_24_S16x1 : S16x16414.Slices ![0, 24] S16x1
  slices_S16x16414_o0_16408_S16x1 : S16x16414.Slices ![0, 16408] S16x1
  slices_S16x16414_o0_25_S16x16384 : S16x16414.Slices ![0, 25] S16x16384
  slices_S16x16414_o0_25_S16x1 : S16x16414.Slices ![0, 25] S16x1
  slices_S16x16414_o0_16409_S16x1 : S16x16414.Slices ![0, 16409] S16x1
  slices_S16x16414_o0_26_S16x16384 : S16x16414.Slices ![0, 26] S16x16384
  slices_S16x16414_o0_26_S16x1 : S16x16414.Slices ![0, 26] S16x1
  slices_S16x16414_o0_16410_S16x1 : S16x16414.Slices ![0, 16410] S16x1
  slices_S16x16414_o0_27_S16x16384 : S16x16414.Slices ![0, 27] S16x16384
  slices_S16x16414_o0_27_S16x1 : S16x16414.Slices ![0, 27] S16x1
  slices_S16x16414_o0_16411_S16x1 : S16x16414.Slices ![0, 16411] S16x1
  slices_S16x16414_o0_28_S16x16384 : S16x16414.Slices ![0, 28] S16x16384
  slices_S16x16414_o0_28_S16x1 : S16x16414.Slices ![0, 28] S16x1
  slices_S16x16414_o0_16412_S16x1 : S16x16414.Slices ![0, 16412] S16x1
  slices_S16x16414_o0_29_S16x16384 : S16x16414.Slices ![0, 29] S16x16384
  slices_S16x16414_o0_29_S16x1 : S16x16414.Slices ![0, 29] S16x1
  slices_S16x16414_o0_16413_S16x1 : S16x16414.Slices ![0, 16413] S16x1
  slices_S16x16414_o0_30_S16x16384 : S16x16414.Slices ![0, 30] S16x16384
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x31_d1 : Shape.Concatenates [S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1] S16x31 1
  inb_S16x31_S16x31_0_0 : ∀ a, (![0, 0] : Fin 2 → Nat) a + S16x31.size a ≤ S16x31.size a
  h_S16x31 : 0 < S16x31.numel
  bcast_S_S128 : S_.BroadcastsInDim S128 (![] : Fin 0 → Fin S128.rank)
  bcast_S128_S128x1_0 : S128.BroadcastsInDim S128x1 (![0] : Fin 1 → Fin S128x1.rank)
  reducesTo_S128x31_S128_d1 : S128x31.ReducesTo [1] S128
  h_S_ : 0 < S_.numel
  bcast_S128x1_S128x31_0_1 : S128x1.BroadcastsInDim S128x31 (![0, 1] : Fin 2 → Fin S128x31.rank)
  reducesTo_S128_S_d0 : S128.ReducesTo [0] S_
  gather_S32x31_S128x1_S128x31_1_0_n_n_0_1_131_wf : GatherDims.WF S32x31 S128x1 S128x31 [1] [0] [] [0] [] 1 ![1, 31]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16384.size a ≤ S128x16384.size a
  hwx0_0 : ∀ i : grid0.Coords, EltTy.bits .f32 = 32 ∨ (Rect.block (s := S128x16384) S16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16384.size a ≤ S128x16384.size a
  hwx0_1 : ∀ i : grid0.Coords, EltTy.bits .f32 = 32 ∨ (Rect.block (s := S128x16384) S16x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x31.size a ≤ S128x31.size a
  hwx0_2 : ∀ i : grid0.Coords, EltTy.bits .f32 = 32 ∨ (Rect.block (s := S128x31) S16x31.size (cc0_transform_2 i) (hinb0_2 i)).WholeWords (EltTy.packing .f32)

variable [Facts₀]

def gather_S32x31_S128x1_S128x31_1_0_n_n_0_1_131 : GatherDims S32x31 S128x1 S128x31 where
  offsetDims := [1]
  collapsedSliceDims := [0]
  operandBatchingDims := []
  startIndicesBatchingDims := []
  startIndexMap := [0]
  indexVectorDim := 1
  sliceSizes := ![1, 31]
  wf := gather_S32x31_S128x1_S128x31_1_0_n_n_0_1_131_wf

abbrev win0_0 : Pipeline.Window sig grid0 :=
  Pipeline.Window.ofSpec (Memref.whole main_arg0) S16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x31.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x16384 : Shape := ⟨2, ![128, 16384]⟩
abbrev S32x31 : Shape := ⟨2, ![32, 31]⟩
abbrev S128 : Shape := ⟨1, ![128]⟩
abbrev S_ : Shape := ⟨0, ![]⟩
abbrev S128x16414 : Shape := ⟨2, ![128, 16414]⟩
abbrev S31 : Shape := ⟨1, ![31]⟩
abbrev S31x1 : Shape := ⟨2, ![31, 1]⟩
abbrev S16384 : Shape := ⟨1, ![16384]⟩
abbrev S1x16384 : Shape := ⟨2, ![1, 16384]⟩
abbrev S31x16384 : Shape := ⟨2, ![31, 16384]⟩
abbrev S31x16384x1 : Shape := ⟨3, ![31, 16384, 1]⟩
abbrev S128x31x16384 : Shape := ⟨3, ![128, 31, 16384]⟩
abbrev S128x1x16384 : Shape := ⟨3, ![128, 1, 16384]⟩
abbrev S128x31 : Shape := ⟨2, ![128, 31]⟩
abbrev S128x1 : Shape := ⟨2, ![128, 1]⟩

abbrev nBuf : Space → Nat
  | .hbm => 62
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S128x16384, .f32⟩
  | .hbm, ⟨2, _⟩ => ⟨S32x31, .f32⟩
  | .hbm, ⟨3, _⟩ => ⟨S128, .i32⟩
  | .hbm, ⟨4, _⟩ => ⟨S_, .i32⟩
  | .hbm, ⟨5, _⟩ => ⟨S_, .f32⟩
  | .hbm, ⟨6, _⟩ => ⟨S128x16414, .f32⟩
  | .hbm, ⟨7, _⟩ => ⟨S31, .i32⟩
  | .hbm, ⟨8, _⟩ => ⟨S31x1, .i32⟩
  | .hbm, ⟨9, _⟩ => ⟨S16384, .i32⟩
  | .hbm, ⟨10, _⟩ => ⟨S1x16384, .i32⟩
  | .hbm, ⟨11, _⟩ => ⟨S31x16384, .i32⟩
  | .hbm, ⟨12, _⟩ => ⟨S31x16384, .i32⟩
  | .hbm, ⟨13, _⟩ => ⟨S31x16384, .i32⟩
  | .hbm, ⟨14, _⟩ => ⟨S_, .i32⟩
  | .hbm, ⟨15, _⟩ => ⟨S31x16384, .i32⟩
  | .hbm, ⟨16, _⟩ => ⟨S31x16384, .i1⟩
  | .hbm, ⟨17, _⟩ => ⟨S_, .i32⟩
  | .hbm, ⟨18, _⟩ => ⟨S31x16384, .i32⟩
  | .hbm, ⟨19, _⟩ => ⟨S31x16384, .i32⟩
  | .hbm, ⟨20, _⟩ => ⟨S31x16384, .i32⟩
  | .hbm, ⟨21, _⟩ => ⟨S31x16384x1, .i32⟩
  | .hbm, ⟨22, _⟩ => ⟨S128x31x16384, .f32⟩
  | .hbm, ⟨23, _⟩ => ⟨S128x1x16384, .f32⟩
  | .hbm, ⟨24, _⟩ => ⟨S128x31x16384, .f32⟩
  | .hbm, ⟨25, _⟩ => ⟨S128x31x16384, .f32⟩
  | .hbm, ⟨26, _⟩ => ⟨S128x31x16384, .f32⟩
  | .hbm, ⟨27, _⟩ => ⟨S_, .f32⟩
  | .hbm, ⟨28, _⟩ => ⟨S128x31, .f32⟩
  | .hbm, ⟨29, _⟩ => ⟨S_, .f32⟩
  | .hbm, ⟨30, _⟩ => ⟨S128x31, .f32⟩
  | .hbm, ⟨31, _⟩ => ⟨S128x31, .f32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S128x31, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S128x31, .f32⟩
  | .hbm, ⟨48, _⟩ => ⟨S128x31, .f32⟩
  | .hbm, ⟨49, _⟩ => ⟨S128x31, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S128x31, .f32⟩
  | .hbm, ⟨54, _⟩ => ⟨S128x31, .f32⟩
  | .hbm, ⟨55, _⟩ => ⟨S128x31, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  pads_S128x16384_S128x16414_000_15150 : S128x16384.Pads (![0, 15] : Fin 2 → Nat) ![0, 15] ![0, 0] S128x16414
  h_S_ : 0 < S_.numel
  bcast_S31_S31x1_0 : S31.BroadcastsInDim S31x1 (![0] : Fin 1 → Fin S31x1.rank)
  bcast_S16384_S1x16384_1 : S16384.BroadcastsInDim S1x16384 (![1] : Fin 1 → Fin S1x16384.rank)
  bcast_S31x1_S31x16384_0_1 : S31x1.BroadcastsInDim S31x16384 (![0, 1] : Fin 2 → Fin S31x16384.rank)
  bcast_S1x16384_S31x16384_0_1 : S1x16384.BroadcastsInDim S31x16384 (![0, 1] : Fin 2 → Fin S31x16384.rank)
  bcast_S_S31x16384 : S_.BroadcastsInDim S31x16384 (![] : Fin 0 → Fin S31x16384.rank)
  bcast_S31x16384_S31x16384x1_0_1 : S31x16384.BroadcastsInDim S31x16384x1 (![0, 1] : Fin 2 → Fin S31x16384x1.rank)
  bcast_S128x16384_S128x1x16384_0_2 : S128x16384.BroadcastsInDim S128x1x16384 (![0, 2] : Fin 2 → Fin S128x1x16384.rank)
  bcast_S128x1x16384_S128x31x16384_0_1_2 : S128x1x16384.BroadcastsInDim S128x31x16384 (![0, 1, 2] : Fin 3 → Fin S128x31x16384.rank)
  reducesTo_S128x31x16384_S128x31_d2 : S128x31x16384.ReducesTo [2] S128x31
  bcast_S_S128x31 : S_.BroadcastsInDim S128x31 (![] : Fin 0 → Fin S128x31.rank)
  bcast_S_S128 : S_.BroadcastsInDim S128 (![] : Fin 0 → Fin S128.rank)
  bcast_S128_S128x1_0 : S128.BroadcastsInDim S128x1 (![0] : Fin 1 → Fin S128x1.rank)
  reducesTo_S128x31_S128_d1 : S128x31.ReducesTo [1] S128
  bcast_S128x1_S128x31_0_1 : S128x1.BroadcastsInDim S128x31 (![0, 1] : Fin 2 → Fin S128x31.rank)
  reducesTo_S128_S_d0 : S128.ReducesTo [0] S_
  gather_S128x16414_S31x16384x1_S128x31x16384_0_1_n_n_1_2_1281_wf : GatherDims.WF S128x16414 S31x16384x1 S128x31x16384 [0] [1] [] [1] [] 2 ![128, 1]
  gather_S32x31_S128x1_S128x31_1_0_n_n_0_1_131_wf : GatherDims.WF S32x31 S128x1 S128x31 [1] [0] [] [0] [] 1 ![1, 31]

variable [Facts₀]

def gather_S128x16414_S31x16384x1_S128x31x16384_0_1_n_n_1_2_1281 : GatherDims S128x16414 S31x16384x1 S128x31x16384 where
  offsetDims := [0]
  collapsedSliceDims := [1]
  operandBatchingDims := []
  startIndicesBatchingDims := []
  startIndexMap := [1]
  indexVectorDim := 2
  sliceSizes := ![128, 1]
  wf := gather_S128x16414_S31x16384x1_S128x31x16384_0_1_n_n_1_2_1281_wf
def gather_S32x31_S128x1_S128x31_1_0_n_n_0_1_131 : GatherDims S32x31 S128x1 S128x31 where
  offsetDims := [1]
  collapsedSliceDims := [0]
  operandBatchingDims := []
  startIndicesBatchingDims := []
  startIndexMap := [0]
  indexVectorDim := 1
  sliceSizes := ![1, 31]
  wf := gather_S32x31_S128x1_S128x31_1_0_n_n_0_1_131_wf

class Facts : Prop extends Facts₀ where

variable [Facts]
-- ==== Proof.Spec.lean ====
/-
  The mathematics shared by the two programs, over no program.

  For a row `a` of 16384 predictions and a row `y` of 16384 targets, padded by 15 zeros on each side to
  `p : ℕ → ℝ` (`p j = y (j - 15)` for 15 ≤ j < 16399, zero elsewhere), the mean squared error at shift `s` is
  `(∑ t, (a t - p (s + t))²) / 16384`.  One program computes the sum of squares directly.  The other expands
  the square, `∑ a² - 2 ∑ a·p(s + ·) + ∑ p(s + ·)²`, and obtains the last sum for s = 0, 1, 2, … by sliding a
  window: `W 0 = ∑ t, p(t)²`, `W (s+1) = W s - p(s)² + p(s + 16384)²`.  This module proves, on the real numbers,
  that the sliding window is the window sum and that the expanded form is the sum of squares.
-/
import Idealize.ShloMosaic.PureOps.Ideal
import Idealize.ShloMosaic.Lib.ValueIdx
import Mathlib.Algebra.BigOperators.Fin
import Mathlib.Tactic.Ring
import Mathlib.Tactic.Linarith

noncomputable section

namespace Cert.ShiftMse

open Idealize.ShloMosaic Idealize.ShloMosaic.ValueIdx
open scoped BigOperators

/-- A row of 16384 reals padded by 15 zeros in front and behind, as a function of the column number. -/
def ypad (y : Fin 16384 → ℝ) (j : ℕ) : ℝ :=
  if h : 15 ≤ j ∧ j - 15 < 16384 then y ⟨j - 15, h.2⟩ else 0

/-- Row `b` of a [128, 16384] array of extended reals, padded by 15 zeros in front and behind. -/
def padRow (x : (⟨2, ![128, 16384]⟩ : Shape).Idx → EReal) (b : Fin 128) (j : ℕ) : EReal :=
  if h : 15 ≤ j ∧ j - 15 < 16384 then x (ix2 b ⟨j - 15, h.2⟩) else 0

/-- The padded row of an array of reals is the coercion of the padded real row. -/
theorem padRow_coe (B : (⟨2, ![128, 16384]⟩ : Shape).Idx → ℝ) (b : Fin 128) (j : ℕ) :
    padRow (fun i => ((B i : ℝ) : EReal)) b j = ((ypad (fun t => B (ix2 b t)) j : ℝ) : EReal) := by
  unfold padRow ypad
  split_ifs <;> simp

/-- The sliding window sum: the sum of the first 16384 entries, then one entry dropped and one added per step. -/
def win (q : ℕ → ℝ) : ℕ → ℝ
  | 0 => ∑ t : Fin 16384, q t.val
  | s + 1 => win q s - q s + q (s + 16384)

theorem win_zero (q : ℕ → ℝ) : win q 0 = ∑ t : Fin 16384, q t.val := rfl
theorem win_succ (q : ℕ → ℝ) (s : ℕ) : win q (s + 1) = win q s - q s + q (s + 16384) := rfl

/-- The sliding window at step `s` is the sum of the 16384 entries from `s` on. -/
theorem win_eq (q : ℕ → ℝ) (s : ℕ) : win q s = ∑ t : Fin 16384, q (s + t.val) := by
  induction s with
  | zero => rw [win_zero]; exact Finset.sum_congr rfl fun t _ => by rw [Nat.zero_add]
  | succ s ih =>
    rw [win_succ, ih, Fin.sum_univ_eq_sum_range (fun t => q (s + t)) 16384,
      Fin.sum_univ_eq_sum_range (fun t => q (s + 1 + t)) 16384]
    have h1 := Finset.sum_range_succ (fun t => q (s + t)) 16384
    have h2 := Finset.sum_range_succ' (fun t => q (s + t)) 16384
    have h3 : ∑ t ∈ Finset.range 16384, q (s + (t + 1)) = ∑ t ∈ Finset.range 16384, q (s + 1 + t) :=
      Finset.sum_congr rfl fun t _ => by rw [Nat.add_assoc, Nat.add_comm 1 t]
    simp only [Nat.add_zero] at h2
    linarith

/-- The expanded square with the sliding window is the sum of squared differences. -/
theorem expand_eq (a : Fin 16384 → ℝ) (p : ℕ → ℝ) (s : ℕ) :
    (∑ t : Fin 16384, a t * a t - 2 * ∑ t : Fin 16384, a t * p (s + t.val)) + win (fun j => p j * p j) s
      = ∑ t : Fin 16384, (a t - p (s + t.val)) * (a t - p (s + t.val)) := by
  rw [win_eq, Finset.mul_sum, ← Finset.sum_sub_distrib, ← Finset.sum_add_distrib]
  exact Finset.sum_congr rfl fun t _ => by ring

end Cert.ShiftMse

end
-- ==== Proof.KernelReads.lean ====
/-
  The kernel body's building blocks read at an entry, at the extended reals.

  Every column of the body's result is built from three kinds of value: a sum along a row of a [16, 16384] block
  (printed as a lane reduction into a vector of 16 followed by a reshape to a column [16, 1]), an entry of the
  target block padded by 15 zeros on each side of every row (printed as a three-piece concatenation), and the
  constant 2.  This module reads each of them at an entry.
-/
import proofs.«144521_j1151051236044_2_alg».proof.Proof.Gen.KernelIdeal.Skeleton
import proofs.«144521_j1151051236044_2_alg».proof.Proof.Spec
import Idealize.ShloMosaic.Lib.ValueLayout
import Idealize.ShloMosaic.Lib.Pipeline.Value
import Idealize.ShloMosaic.PureOps.Ideal.Laws

noncomputable section

namespace Cert.ShiftMse.Kernel

open Idealize.ShloMosaic Idealize.ShloMosaic.ValueIdx Cert.KernelIdeal Cert.KernelIdeal.Gen Cert.ShiftMse
open scoped BigOperators

/-- The zero offsets of a whole-block access, however spelt. -/
theorem hz : (![0, 0] : Fin 2 → Nat) = fun _ => 0 := funext fun a => by fin_cases a <;> rfl

/-- The source index of a sum along a row: column `k` of row `a`. -/
theorem lift_row {m n : Nat} (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- A lane sum of a [16, 16384] block from a zero accumulator, reshaped to a column, read at row `r`: the sum along
    the row. -/
theorem rowsum_col (v : FVec Ideal S16x16384 .f32) (hφ : FKind.Formats .f32)
    (hacc : (0x00000000#32 : BitVec 32) = 0x00000000#32) (r : Fin 16) :
    shapeCast S16x1 (multiReduction .add [1] S16 v 0x00000000#32 reduces_S16x16384_S16 hφ hacc) shapeCasts_S16_S16x1
        (ix2 r (0 : Fin 1))
      = ∑ t : Fin 16384, v (ix2 r t) := by
  refine (shapeCast_apply _ shapeCasts_S16_S16x1 (ix2 r (0 : Fin 1)) (ix1 r) (by
    rw [Shape.rowMajor_val_two, Shape.rowMajor_val_one]; show r.val = r.val * 1 + 0; omega)).trans ?_
  refine (Ideal.multiReduction_add_single v 0x00000000#32 reduces_S16x16384_S16 hφ hacc (ix1 r)).trans ?_
  exact Finset.sum_congr rfl fun k _ => congrArg v (lift_row reduces_S16x16384_S16 r k)

/-- The float word of 2.0 denotes the real number 2. -/
theorem ofBits_two : Ideal.ofBits .f32 0x40000000#32 = ((2 : ℝ) : EReal) := by
  simp [Ideal.ofBits, Ideal.ieee, -EReal.coe_mul]; norm_num

/-- The block of targets padded by 15 zeros on each side of every row, read at row r and column j: zero in the
    margins, the block's entry at column j - 15 in between. -/
theorem pay3_apply (x1 : Vec Ideal S16x16384 .f32) (r : Fin 16) (j : Fin 16414) :
    k0_pay3 (F := Ideal) x1 (ix2 r j)
      = if h : 15 ≤ j.val ∧ j.val - 15 < 16384 then x1 (ix2 r ⟨j.val - 15, h.2⟩) else 0 := by
  unfold k0_pay3
  have hj := j.isLt
  have key := concatenate_apply_piece (α := Ideal .f32) 1
    [⟨S16x15, broadcast S16x15 (Scalar.ofBits (F := Ideal) .f32 0x00000000#32)⟩, ⟨S16x16384, x1⟩,
      ⟨S16x15, broadcast S16x15 (Scalar.ofBits (F := Ideal) .f32 0x00000000#32)⟩]
    concatenates_S16x15_S16x16384_S16x15_S16x16414_d1 (ix2 r j)
  by_cases h1 : j.val < 15
  · rw [dif_neg (by omega)]
    refine (key 0 (Nat.zero_lt_succ 2) S16x15 _ rfl rfl 0 rfl
      (ix2 r ⟨j.val, h1⟩) (fun b hb => by match b with | ⟨0, _⟩ => rfl | ⟨1, _⟩ => exact absurd rfl hb) (by show 0 + j.val = j.val; omega)).trans ?_
    show Ideal.ofBits .f32 0x00000000#32 = 0
    exact Ideal.ofBits_zero_f32
  · by_cases h2 : j.val < 16399
    · rw [dif_pos ⟨by omega, by omega⟩]
      exact key 1 (Nat.succ_lt_succ (Nat.zero_lt_succ 1)) S16x16384 _ rfl rfl 15 rfl
        (ix2 r ⟨j.val - 15, by omega⟩) (fun b hb => by match b with | ⟨0, _⟩ => rfl | ⟨1, _⟩ => exact absurd rfl hb) (by show 15 + (j.val - 15) = j.val; omega)
    · rw [dif_neg (by omega)]
      refine (key 2 (Nat.lt_succ_self 2) S16x15 _ rfl rfl 16399 rfl
        (ix2 r ⟨j.val - 16399, by omega⟩) (fun b hb => by match b with | ⟨0, _⟩ => rfl | ⟨1, _⟩ => exact absurd rfl hb) (by show 16399 + (j.val - 16399) = j.val; omega)).trans ?_
      show Ideal.ofBits .f32 0x00000000#32 = 0
      exact Ideal.ofBits_zero_f32

/-- For a block of real targets the padded block's entry is the padded real row's. -/
theorem pay3_coe (B : S16x16384.Idx → ℝ) (r : Fin 16) (j : Fin 16414) :
    k0_pay3 (F := Ideal) (fun i => ((B i : ℝ) : EReal)) (ix2 r j) = ((ypad (fun t => B (ix2 r t)) j.val : ℝ) : EReal) := by
  rw [pay3_apply]; unfold ypad
  split_ifs <;> simp

/-- The body's result block is 31 one-column pieces laid side by side: entry (r, s) is row `r` of piece `s`. -/
theorem pay2_apply (c : Fin 31 → FVec Ideal S16x1 .f32) (r : Fin 16) (s : Fin 31) :
    k0_pay2 (F := Ideal) (c 0) (c 1) (c 2) (c 3) (c 4) (c 5) (c 6) (c 7) (c 8) (c 9) (c 10) (c 11) (c 12) (c 13) (c 14) (c 15) (c 16) (c 17) (c 18) (c 19) (c 20) (c 21) (c 22) (c 23) (c 24) (c 25) (c 26) (c 27) (c 28) (c 29) (c 30) (ix2 r s) = c s (ix2 r (0 : Fin 1)) := by
  unfold k0_pay2
  exact concatenate_ofFn_unit_apply (α := Ideal .f32) (t := S16x31) (s₁ := S16x1) 1 c
    concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x31_d1
    rfl rfl (ix2 r s) s rfl (ix2 r (0 : Fin 1))
    (fun b hb => by match b with | ⟨0, _⟩ => rfl | ⟨1, _⟩ => exact absurd rfl hb)

section Columns
variable {c0 c1 c2 c3 c4 c5 c6 c7 c8 c9 c10 c11 c12 c13 c14 c15 c16 c17 c18 c19 c20 c21 c22 c23 c24 c25 c26 c27 c28 c29 c30 : FVec Ideal S16x1 .f32}

/-! The same, piece by piece, with the pieces named: column `k` of the block is the `k`-th piece. -/
theorem pay2_at_0 (r : Fin 16) (hk : 0 < 31) : k0_pay2 (F := Ideal) c0 c1 c2 c3 c4 c5 c6 c7 c8 c9 c10 c11 c12 c13 c14 c15 c16 c17 c18 c19 c20 c21 c22 c23 c24 c25 c26 c27 c28 c29 c30 (ix2 r ⟨0, hk⟩) = c0 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨0, hk⟩
theorem pay2_at_1 (r : Fin 16) (hk : 1 < 31) : k0_pay2 (F := Ideal) c0 c1 c2 c3 c4 c5 c6 c7 c8 c9 c10 c11 c12 c13 c14 c15 c16 c17 c18 c19 c20 c21 c22 c23 c24 c25 c26 c27 c28 c29 c30 (ix2 r ⟨1, hk⟩) = c1 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨1, hk⟩
theorem pay2_at_2 (r : Fin 16) (hk : 2 < 31) : k0_pay2 (F := Ideal) c0 c1 c2 c3 c4 c5 c6 c7 c8 c9 c10 c11 c12 c13 c14 c15 c16 c17 c18 c19 c20 c21 c22 c23 c24 c25 c26 c27 c28 c29 c30 (ix2 r ⟨2, hk⟩) = c2 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨2, hk⟩
theorem pay2_at_3 (r : Fin 16) (hk : 3 < 31) : k0_pay2 (F := Ideal) c0 c1 c2 c3 c4 c5 c6 c7 c8 c9 c10 c11 c12 c13 c14 c15 c16 c17 c18 c19 c20 c21 c22 c23 c24 c25 c26 c27 c28 c29 c30 (ix2 r ⟨3, hk⟩) = c3 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨3, hk⟩
theorem pay2_at_4 (r : Fin 16) (hk : 4 < 31) : k0_pay2 (F := Ideal) c0 c1 c2 c3 c4 c5 c6 c7 c8 c9 c10 c11 c12 c13 c14 c15 c16 c17 c18 c19 c20 c21 c22 c23 c24 c25 c26 c27 c28 c29 c30 (ix2 r ⟨4, hk⟩) = c4 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨4, hk⟩
theorem pay2_at_5 (r : Fin 16) (hk : 5 < 31) : k0_pay2 (F := Ideal) c0 c1 c2 c3 c4 c5 c6 c7 c8 c9 c10 c11 c12 c13 c14 c15 c16 c17 c18 c19 c20 c21 c22 c23 c24 c25 c26 c27 c28 c29 c30 (ix2 r ⟨5, hk⟩) = c5 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨5, hk⟩
theorem pay2_at_6 (r : Fin 16) (hk : 6 < 31) : k0_pay2 (F := Ideal) c0 c1 c2 c3 c4 c5 c6 c7 c8 c9 c10 c11 c12 c13 c14 c15 c16 c17 c18 c19 c20 c21 c22 c23 c24 c25 c26 c27 c28 c29 c30 (ix2 r ⟨6, hk⟩) = c6 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨6, hk⟩
theorem pay2_at_7 (r : Fin 16) (hk : 7 < 31) : k0_pay2 (F := Ideal) c0 c1 c2 c3 c4 c5 c6 c7 c8 c9 c10 c11 c12 c13 c14 c15 c16 c17 c18 c19 c20 c21 c22 c23 c24 c25 c26 c27 c28 c29 c30 (ix2 r ⟨7, hk⟩) = c7 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨7, hk⟩
theorem pay2_at_8 (r : Fin 16) (hk : 8 < 31) : k0_pay2 (F := Ideal) c0 c1 c2 c3 c4 c5 c6 c7 c8 c9 c10 c11 c12 c13 c14 c15 c16 c17 c18 c19 c20 c21 c22 c23 c24 c25 c26 c27 c28 c29 c30 (ix2 r ⟨8, hk⟩) = c8 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨8, hk⟩
theorem pay2_at_9 (r : Fin 16) (hk : 9 < 31) : k0_pay2 (F := Ideal) c0 c1 c2 c3 c4 c5 c6 c7 c8 c9 c10 c11 c12 c13 c14 c15 c16 c17 c18 c19 c20 c21 c22 c23 c24 c25 c26 c27 c28 c29 c30 (ix2 r ⟨9, hk⟩) = c9 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨9, hk⟩
theorem pay2_at_10 (r : Fin 16) (hk : 10 < 31) : k0_pay2 (F := Ideal) c0 c1 c2 c3 c4 c5 c6 c7 c8 c9 c10 c11 c12 c13 c14 c15 c16 c17 c18 c19 c20 c21 c22 c23 c24 c25 c26 c27 c28 c29 c30 (ix2 r ⟨10, hk⟩) = c10 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨10, hk⟩
theorem pay2_at_11 (r : Fin 16) (hk : 11 < 31) : k0_pay2 (F := Ideal) c0 c1 c2 c3 c4 c5 c6 c7 c8 c9 c10 c11 c12 c13 c14 c15 c16 c17 c18 c19 c20 c21 c22 c23 c24 c25 c26 c27 c28 c29 c30 (ix2 r ⟨11, hk⟩) = c11 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨11, hk⟩
theorem pay2_at_12 (r : Fin 16) (hk : 12 < 31) : k0_pay2 (F := Ideal) c0 c1 c2 c3 c4 c5 c6 c7 c8 c9 c10 c11 c12 c13 c14 c15 c16 c17 c18 c19 c20 c21 c22 c23 c24 c25 c26 c27 c28 c29 c30 (ix2 r ⟨12, hk⟩) = c12 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨12, hk⟩
theorem pay2_at_13 (r : Fin 16) (hk : 13 < 31) : k0_pay2 (F := Ideal) c0 c1 c2 c3 c4 c5 c6 c7 c8 c9 c10 c11 c12 c13 c14 c15 c16 c17 c18 c19 c20 c21 c22 c23 c24 c25 c26 c27 c28 c29 c30 (ix2 r ⟨13, hk⟩) = c13 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨13, hk⟩
theorem pay2_at_14 (r : Fin 16) (hk : 14 < 31) : k0_pay2 (F := Ideal) c0 c1 c2 c3 c4 c5 c6 c7 c8 c9 c10 c11 c12 c13 c14 c15 c16 c17 c18 c19 c20 c21 c22 c23 c24 c25 c26 c27 c28 c29 c30 (ix2 r ⟨14, hk⟩) = c14 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨14, hk⟩
theorem pay2_at_15 (r : Fin 16) (hk : 15 < 31) : k0_pay2 (F := Ideal) c0 c1 c2 c3 c4 c5 c6 c7 c8 c9 c10 c11 c12 c13 c14 c15 c16 c17 c18 c19 c20 c21 c22 c23 c24 c25 c26 c27 c28 c29 c30 (ix2 r ⟨15, hk⟩) = c15 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨15, hk⟩
theorem pay2_at_16 (r : Fin 16) (hk : 16 < 31) : k0_pay2 (F := Ideal) c0 c1 c2 c3 c4 c5 c6 c7 c8 c9 c10 c11 c12 c13 c14 c15 c16 c17 c18 c19 c20 c21 c22 c23 c24 c25 c26 c27 c28 c29 c30 (ix2 r ⟨16, hk⟩) = c16 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨16, hk⟩
theorem pay2_at_17 (r : Fin 16) (hk : 17 < 31) : k0_pay2 (F := Ideal) c0 c1 c2 c3 c4 c5 c6 c7 c8 c9 c10 c11 c12 c13 c14 c15 c16 c17 c18 c19 c20 c21 c22 c23 c24 c25 c26 c27 c28 c29 c30 (ix2 r ⟨17, hk⟩) = c17 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨17, hk⟩
theorem pay2_at_18 (r : Fin 16) (hk : 18 < 31) : k0_pay2 (F := Ideal) c0 c1 c2 c3 c4 c5 c6 c7 c8 c9 c10 c11 c12 c13 c14 c15 c16 c17 c18 c19 c20 c21 c22 c23 c24 c25 c26 c27 c28 c29 c30 (ix2 r ⟨18, hk⟩) = c18 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨18, hk⟩
theorem pay2_at_19 (r : Fin 16) (hk : 19 < 31) : k0_pay2 (F := Ideal) c0 c1 c2 c3 c4 c5 c6 c7 c8 c9 c10 c11 c12 c13 c14 c15 c16 c17 c18 c19 c20 c21 c22 c23 c24 c25 c26 c27 c28 c29 c30 (ix2 r ⟨19, hk⟩) = c19 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨19, hk⟩
theorem pay2_at_20 (r : Fin 16) (hk : 20 < 31) : k0_pay2 (F := Ideal) c0 c1 c2 c3 c4 c5 c6 c7 c8 c9 c10 c11 c12 c13 c14 c15 c16 c17 c18 c19 c20 c21 c22 c23 c24 c25 c26 c27 c28 c29 c30 (ix2 r ⟨20, hk⟩) = c20 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨20, hk⟩
theorem pay2_at_21 (r : Fin 16) (hk : 21 < 31) : k0_pay2 (F := Ideal) c0 c1 c2 c3 c4 c5 c6 c7 c8 c9 c10 c11 c12 c13 c14 c15 c16 c17 c18 c19 c20 c21 c22 c23 c24 c25 c26 c27 c28 c29 c30 (ix2 r ⟨21, hk⟩) = c21 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨21, hk⟩
theorem pay2_at_22 (r : Fin 16) (hk : 22 < 31) : k0_pay2 (F := Ideal) c0 c1 c2 c3 c4 c5 c6 c7 c8 c9 c10 c11 c12 c13 c14 c15 c16 c17 c18 c19 c20 c21 c22 c23 c24 c25 c26 c27 c28 c29 c30 (ix2 r ⟨22, hk⟩) = c22 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨22, hk⟩
theorem pay2_at_23 (r : Fin 16) (hk : 23 < 31) : k0_pay2 (F := Ideal) c0 c1 c2 c3 c4 c5 c6 c7 c8 c9 c10 c11 c12 c13 c14 c15 c16 c17 c18 c19 c20 c21 c22 c23 c24 c25 c26 c27 c28 c29 c30 (ix2 r ⟨23, hk⟩) = c23 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨23, hk⟩
theorem pay2_at_24 (r : Fin 16) (hk : 24 < 31) : k0_pay2 (F := Ideal) c0 c1 c2 c3 c4 c5 c6 c7 c8 c9 c10 c11 c12 c13 c14 c15 c16 c17 c18 c19 c20 c21 c22 c23 c24 c25 c26 c27 c28 c29 c30 (ix2 r ⟨24, hk⟩) = c24 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨24, hk⟩
theorem pay2_at_25 (r : Fin 16) (hk : 25 < 31) : k0_pay2 (F := Ideal) c0 c1 c2 c3 c4 c5 c6 c7 c8 c9 c10 c11 c12 c13 c14 c15 c16 c17 c18 c19 c20 c21 c22 c23 c24 c25 c26 c27 c28 c29 c30 (ix2 r ⟨25, hk⟩) = c25 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨25, hk⟩
theorem pay2_at_26 (r : Fin 16) (hk : 26 < 31) : k0_pay2 (F := Ideal) c0 c1 c2 c3 c4 c5 c6 c7 c8 c9 c10 c11 c12 c13 c14 c15 c16 c17 c18 c19 c20 c21 c22 c23 c24 c25 c26 c27 c28 c29 c30 (ix2 r ⟨26, hk⟩) = c26 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨26, hk⟩
theorem pay2_at_27 (r : Fin 16) (hk : 27 < 31) : k0_pay2 (F := Ideal) c0 c1 c2 c3 c4 c5 c6 c7 c8 c9 c10 c11 c12 c13 c14 c15 c16 c17 c18 c19 c20 c21 c22 c23 c24 c25 c26 c27 c28 c29 c30 (ix2 r ⟨27, hk⟩) = c27 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨27, hk⟩
theorem pay2_at_28 (r : Fin 16) (hk : 28 < 31) : k0_pay2 (F := Ideal) c0 c1 c2 c3 c4 c5 c6 c7 c8 c9 c10 c11 c12 c13 c14 c15 c16 c17 c18 c19 c20 c21 c22 c23 c24 c25 c26 c27 c28 c29 c30 (ix2 r ⟨28, hk⟩) = c28 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨28, hk⟩
theorem pay2_at_29 (r : Fin 16) (hk : 29 < 31) : k0_pay2 (F := Ideal) c0 c1 c2 c3 c4 c5 c6 c7 c8 c9 c10 c11 c12 c13 c14 c15 c16 c17 c18 c19 c20 c21 c22 c23 c24 c25 c26 c27 c28 c29 c30 (ix2 r ⟨29, hk⟩) = c29 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨29, hk⟩
theorem pay2_at_30 (r : Fin 16) (hk : 30 < 31) : k0_pay2 (F := Ideal) c0 c1 c2 c3 c4 c5 c6 c7 c8 c9 c10 c11 c12 c13 c14 c15 c16 c17 c18 c19 c20 c21 c22 c23 c24 c25 c26 c27 c28 c29 c30 (ix2 r ⟨30, hk⟩) = c30 (ix2 r (0 : Fin 1)) :=
  pay2_apply (![c0, c1, c2, c3, c4, c5, c6, c7, c8, c9, c10, c11, c12, c13, c14, c15, c16, c17, c18, c19, c20, c21, c22, c23, c24, c25, c26, c27, c28, c29, c30] : Fin 31 → FVec Ideal S16x1 .f32) r ⟨30, hk⟩

end Columns

end Cert.ShiftMse.Kernel

end
-- ==== Proof.MseArray.lean ====
/-
  The per-shift mean squared error of real arrays, as one array of extended reals.

  For predictions `A0` and targets `A1` (both [128, 16384], real), entry (b, s) of the [128, 31] result is the sum over
  the row of the squared differences between the predictions and the zero-padded targets shifted by `s`, divided by
  the float constant 16384 (kept as its float word: both programs divide by the same one).
-/
import proofs.«144521_j1151051236044_2_alg».proof.Proof.Spec

noncomputable section

namespace Cert.ShiftMse

open Idealize.ShloMosaic Idealize.ShloMosaic.ValueIdx
open scoped BigOperators

/-- The coercion of a finite sum of reals into the extended reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squared differences between a row `a` and a padded row `p` shifted by `k`. -/
def rowErr (a : Fin 16384 → ℝ) (p : ℕ → ℝ) (k : ℕ) : ℝ :=
  ∑ t : Fin 16384, (a t - p (k + t.val)) * (a t - p (k + t.val))

/-- The expanded square with the sliding window is the sum of squared differences. -/
theorem expand_rowErr (a : Fin 16384 → ℝ) (p : ℕ → ℝ) (k : ℕ) :
    (∑ t : Fin 16384, a t * a t - 2 * ∑ t : Fin 16384, a t * p (k + t.val)) + win (fun j => p j * p j) k = rowErr a p k :=
  expand_eq a p k

/-- The sum over row `b` of the squared differences at shift `s`. -/
def sqErr (A0 A1 : (⟨2, ![128, 16384]⟩ : Shape).Idx → ℝ) (b : Fin 128) (s : Fin 31) : ℝ :=
  ∑ t : Fin 16384, (A0 (ix2 b t) - ypad (fun t => A1 (ix2 b t)) (s.val + t.val))
    * (A0 (ix2 b t) - ypad (fun t => A1 (ix2 b t)) (s.val + t.val))

/-- The [128, 31] array of mean squared errors. -/
def mseArr (A0 A1 : (⟨2, ![128, 16384]⟩ : Shape).Idx → ℝ) : (⟨2, ![128, 31]⟩ : Shape).Idx → EReal := fun i =>
  Ideal.div ((sqErr A0 A1 ⟨(i 0).val, idx2_lt0 i⟩ ⟨(i 1).val, idx2_lt1 i⟩ : ℝ) : EReal) (Ideal.ofBits .f32 0x46800000#32)

theorem sqErr_eq (A0 A1 : (⟨2, ![128, 16384]⟩ : Shape).Idx → ℝ) (b : Fin 128) (s : Fin 31) :
    sqErr A0 A1 b s = rowErr (fun t => A0 (ix2 b t)) (ypad (fun t => A1 (ix2 b t))) s.val := rfl

theorem mseArr_apply (A0 A1 : (⟨2, ![128, 16384]⟩ : Shape).Idx → ℝ) (b : Fin 128) (s : Fin 31) :
    mseArr A0 A1 (ix2 b s) = Ideal.div ((sqErr A0 A1 b s : ℝ) : EReal) (Ideal.ofBits .f32 0x46800000#32) := rfl

end Cert.ShiftMse

end
-- ==== Proof.KernelColsA.lean ====
/-
  The kernel body's output block, columns 0 to 7, for real inputs.

  Column `k` of the block the kernel body stores holds, for each of its 16 rows, `((∑ a² - 2 ∑ a·p(k + ·)) + W k) / 16384`:
  `a` the row of predictions, `p` the row of targets padded by 15 zeros on each side, `W k` the window sum of `p²` reached
  from `W 0` by `k` sliding steps, each dropping one square and adding one.  For real inputs every intermediate value is a
  real number; the numerator is then the expanded square with its sliding window, which is the sum of squared differences
  `∑ (a t - p (k + t))²`.  The columns are printed one after the other, so the same evaluation is run once per column: unfold
  the column's operations down to its three row sums, read the row sums, read the padded targets, gather the real
  arithmetic under one coercion, and recognise the expanded square.
-/
import proofs.«144521_j1151051236044_2_alg».proof.Proof.KernelIdealFrame
import proofs.«144521_j1151051236044_2_alg».proof.Proof.KernelReads
import proofs.«144521_j1151051236044_2_alg».proof.Proof.MseArray

noncomputable section

namespace Cert.ShiftMse.Kernel

open Idealize.ShloMosaic Idealize.ShloMosaic.ValueIdx Cert.KernelIdeal Cert.KernelIdeal.Gen Cert.KernelIdeal.GenP Cert.ShiftMse
open scoped BigOperators

-- The evaluation of one column's numerator down to a single coerced real expression.
local macro "column_value" : tactic => `(tactic| (
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75,
    divf, addf, subf, mulf, broadcast, slice2_axis1_eq, pay3_coe, Ideal.divf_def, Ideal.addf_def, Ideal.subf_def,
    Ideal.mulf_def, Ideal.ofBits_def, ofBits_two, Fin.val_zero, Nat.add_zero, Nat.zero_add]
  rw [rowsum_col, rowsum_col, rowsum_col]
  simp only [mulf, slice2_axis1_eq, pay3_coe, Ideal.mulf_def, Nat.zero_add]
  simp only [← EReal.coe_mul, ← EReal.coe_add, ← EReal.coe_sub, ← coe_sum]
  refine congrArg (fun z : ℝ => Ideal.div (z : EReal) (Ideal.ofBits .f32 0x46800000#32)) ?_))

set_option maxHeartbeats 1000000 in
theorem col_0 (A B : S16x16384.Idx → ℝ) (r : Fin 16) (hk : 0 < 31) :
    out0_2 (F := Ideal) (fun i => ((A i : ℝ) : EReal)) (fun i => ((B i : ℝ) : EReal)) (ix2 r ⟨0, hk⟩)
      = Ideal.div ((rowErr (fun t => A (ix2 r t)) (ypad (fun t => B (ix2 r t))) 0 : ℝ) : EReal)
          (Ideal.ofBits .f32 0x46800000#32) := by
  unfold out0_2
  rw [View.canon_unit_zero hz]
  simp only [View.ld_unit_zero (S := S16x16384) hz]
  refine (pay2_at_0 r hk).trans ?_
  column_value
  refine Eq.trans ?_ (expand_rowErr (fun t => A (ix2 r t)) (ypad (fun t => B (ix2 r t))) 0)
  simp only [win_succ, win_zero, Nat.zero_add]

set_option maxHeartbeats 1000000 in
theorem col_1 (A B : S16x16384.Idx → ℝ) (r : Fin 16) (hk : 1 < 31) :
    out0_2 (F := Ideal) (fun i => ((A i : ℝ) : EReal)) (fun i => ((B i : ℝ) : EReal)) (ix2 r ⟨1, hk⟩)
      = Ideal.div ((rowErr (fun t => A (ix2 r t)) (ypad (fun t => B (ix2 r t))) 1 : ℝ) : EReal)
          (Ideal.ofBits .f32 0x46800000#32) := by
  unfold out0_2
  rw [View.canon_unit_zero hz]
  simp only [View.ld_unit_zero (S := S16x16384) hz]
  refine (pay2_at_1 r hk).trans ?_
  column_value
  refine Eq.trans ?_ (expand_rowErr (fun t => A (ix2 r t)) (ypad (fun t => B (ix2 r t))) 1)
  simp only [win_succ, win_zero, Nat.zero_add]

set_option maxHeartbeats 1000000 in
theorem col_2 (A B : S16x16384.Idx → ℝ) (r : Fin 16) (hk : 2 < 31) :
    out0_2 (F := Ideal) (fun i => ((A i : ℝ) : EReal)) (fun i => ((B i : ℝ) : EReal)) (ix2 r ⟨2, hk⟩)
      = Ideal.div ((rowErr (fun t => A (ix2 r t)) (ypad (fun t => B (ix2 r t))) 2 : ℝ) : EReal)
          (Ideal.ofBits .f32 0x46800000#32) := by
  unfold out0_2
  rw [View.canon_unit_zero hz]
  simp only [View.ld_unit_zero (S := S16x16384) hz]
  refine (pay2_at_2 r hk).trans ?_
  column_value
  refine Eq.trans ?_ (expand_rowErr (fun t => A (ix2 r t)) (ypad (fun t => B (ix2 r t))) 2)
  simp only [win_succ, win_zero, Nat.zero_add]

set_option maxHeartbeats 1000000 in
theorem col_3 (A B : S16x16384.Idx → ℝ) (r : Fin 16) (hk : 3 < 31) :
    out0_2 (F := Ideal) (fun i => ((A i : ℝ) : EReal)) (fun i => ((B i : ℝ) : EReal)) (ix2 r ⟨3, hk⟩)
      = Ideal.div ((rowErr (fun t => A (ix2 r t)) (ypad (fun t => B (ix2 r t))) 3 : ℝ) : EReal)
          (Ideal.ofBits .f32 0x46800000#32) := by
  unfold out0_2
  rw [View.canon_unit_zero hz]
  simp only [View.ld_unit_zero (S := S16x16384) hz]
  refine (pay2_at_3 r hk).trans ?_
  column_value
  refine Eq.trans ?_ (expand_rowErr (fun t => A (ix2 r t)) (ypad (fun t => B (ix2 r t))) 3)
  simp only [win_succ, win_zero, Nat.zero_add]

set_option maxHeartbeats 1000000 in
theorem col_4 (A B : S16x16384.Idx → ℝ) (r : Fin 16) (hk : 4 < 31) :
    out0_2 (F := Ideal) (fun i => ((A i : ℝ) : EReal)) (fun i => ((B i : ℝ) : EReal)) (ix2 r ⟨4, hk⟩)
      = Ideal.div ((rowErr (fun t => A (ix2 r t)) (ypad (fun t => B (ix2 r t))) 4 : ℝ) : EReal)
          (Ideal.ofBits .f32 0x46800000#32) := by
  unfold out0_2
  rw [View.canon_unit_zero hz]
  simp only [View.ld_unit_zero (S := S16x16384) hz]
  refine (pay2_at_4 r hk).trans ?_
  column_value
  refine Eq.trans ?_ (expand_rowErr (fun t => A (ix2 r t)) (ypad (fun t => B (ix2 r t))) 4)
  simp only [win_succ, win_zero, Nat.zero_add]

set_option maxHeartbeats 1000000 in
theorem col_5 (A B : S16x16384.Idx → ℝ) (r : Fin 16) (hk : 5 < 31) :
    out0_2 (F := Ideal) (fun i => ((A i : ℝ) : EReal)) (fun i => ((B i : ℝ) : EReal)) (ix2 r ⟨5, hk⟩)
      = Ideal.div ((rowErr (fun t => A (ix2 r t)) (ypad (fun t => B (ix2 r t))) 5 : ℝ) : EReal)
          (Ideal.ofBits .f32 0x46800000#32) := by
  unfold out0_2
  rw [View.canon_unit_zero hz]
  simp only [View.ld_unit_zero (S := S16x16384) hz]
  refine (pay2_at_5 r hk).trans ?_
  column_value
  refine Eq.trans ?_ (expand_rowErr (fun t => A (ix2 r t)) (ypad (fun t => B (ix2 r t))) 5)
  simp only [win_succ, win_zero, Nat.zero_add]

set_option maxHeartbeats 1000000 in
theorem col_6 (A B : S16x16384.Idx → ℝ) (r : Fin 16) (hk : 6 < 31) :
    out0_2 (F := Ideal) (fun i => ((A i : ℝ) : EReal)) (fun i => ((B i : ℝ) : EReal)) (ix2 r ⟨6, hk⟩)
      = Ideal.div ((rowErr (fun t => A (ix2 r t)) (ypad (fun t => B (ix2 r t))) 6 : ℝ) : EReal)
          (Ideal.ofBits .f32 0x46800000#32) := by
  unfold out0_2
  rw [View.canon_unit_zero hz]
  simp only [View.ld_unit_zero (S := S16x16384) hz]
  refine (pay2_at_6 r hk).trans ?_
  column_value
  refine Eq.trans ?_ (expand_rowErr (fun t => A (ix2 r t)) (ypad (fun t => B (ix2 r t))) 6)
  simp only [win_succ, win_zero, Nat.zero_add]

set_option maxHeartbeats 1000000 in
theorem col_7 (A B : S16x16384.Idx → ℝ) (r : Fin 16) (hk : 7 < 31) :
    out0_2 (F := Ideal) (fun i => ((A i : ℝ) : EReal)) (fun i => ((B i : ℝ) : EReal)) (ix2 r ⟨7, hk⟩)
      = Ideal.div ((rowErr (fun t => A (ix2 r t)) (ypad (fun t => B (ix2 r t))) 7 : ℝ) : EReal)
          (Ideal.ofBits .f32 0x46800000#32) := by
  unfold out0_2
  rw [View.canon_unit_zero hz]
  simp only [View.ld_unit_zero (S := S16x16384) hz]
  refine (pay2_at_7 r hk).trans ?_
  column_value
  refine Eq.trans ?_ (expand_rowErr (fun t => A (ix2 r t)) (ypad (fun t => B (ix2 r t))) 7)
  simp only [win_succ, win_zero, Nat.zero_add]

end Cert.ShiftMse.Kernel

end
-- ==== Proof.KernelColsB.lean ====
/-
  The kernel body's output block, columns 8 to 15, for real inputs.

  Column `k` of the block the kernel body stores holds, for each of its 16 rows, `((∑ a² - 2 ∑ a·p(k + ·)) + W k) / 16384`:
  `a` the row of predictions, `p` the row of targets padded by 15 zeros on each side, `W k` the window sum of `p²` reached
  from `W 0` by `k` sliding steps, each dropping one square and adding one.  For real inputs every intermediate value is a
  real number; the numerator is then the expanded square with its sliding window, which is the sum of squared differences
  `∑ (a t - p (k + t))²`.  The columns are printed one after the other, so the same evaluation is run once per column: unfold
  the column's operations down to its three row sums, read the row sums, read the padded targets, gather the real
  arithmetic under one coercion, and recognise the expanded square.
-/
import proofs.«144521_j1151051236044_2_alg».proof.Proof.KernelIdealFrame
import proofs.«144521_j1151051236044_2_alg».proof.Proof.KernelReads
import proofs.«144521_j1151051236044_2_alg».proof.Proof.MseArray

noncomputable section

namespace Cert.ShiftMse.Kernel

open Idealize.ShloMosaic Idealize.ShloMosaic.ValueIdx Cert.KernelIdeal Cert.KernelIdeal.Gen Cert.KernelIdeal.GenP Cert.ShiftMse
open scoped BigOperators

-- The evaluation of one column's numerator down to a single coerced real expression.
local macro "column_value" : tactic => `(tactic| (
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75,
    divf, addf, subf, mulf, broadcast, slice2_axis1_eq, pay3_coe, Ideal.divf_def, Ideal.addf_def, Ideal.subf_def,
    Ideal.mulf_def, Ideal.ofBits_def, ofBits_two, Fin.val_zero, Nat.add_zero, Nat.zero_add]
  rw [rowsum_col, rowsum_col, rowsum_col]
  simp only [mulf, slice2_axis1_eq, pay3_coe, Ideal.mulf_def, Nat.zero_add]
  simp only [← EReal.coe_mul, ← EReal.coe_add, ← EReal.coe_sub, ← coe_sum]
  refine congrArg (fun z : ℝ => Ideal.div (z : EReal) (Ideal.ofBits .f32 0x46800000#32)) ?_))

set_option maxHeartbeats 1000000 in
theorem col_8 (A B : S16x16384.Idx → ℝ) (r : Fin 16) (hk : 8 < 31) :
    out0_2 (F := Ideal) (fun i => ((A i : ℝ) : EReal)) (fun i => ((B i : ℝ) : EReal)) (ix2 r ⟨8, hk⟩)
      = Ideal.div ((rowErr (fun t => A (ix2 r t)) (ypad (fun t => B (ix2 r t))) 8 : ℝ) : EReal)
          (Ideal.ofBits .f32 0x46800000#32) := by
  unfold out0_2
  rw [View.canon_unit_zero hz]
  simp only [View.ld_unit_zero (S := S16x16384) hz]
  refine (pay2_at_8 r hk).trans ?_
  column_value
  refine Eq.trans ?_ (expand_rowErr (fun t => A (ix2 r t)) (ypad (fun t => B (ix2 r t))) 8)
  simp only [win_succ, win_zero, Nat.zero_add]

set_option maxHeartbeats 1000000 in
theorem col_9 (A B : S16x16384.Idx → ℝ) (r : Fin 16) (hk : 9 < 31) :
    out0_2 (F := Ideal) (fun i => ((A i : ℝ) : EReal)) (fun i => ((B i : ℝ) : EReal)) (ix2 r ⟨9, hk⟩)
      = Ideal.div ((rowErr (fun t => A (ix2 r t)) (ypad (fun t => B (ix2 r t))) 9 : ℝ) : EReal)
          (Ideal.ofBits .f32 0x46800000#32) := by
  unfold out0_2
  rw [View.canon_unit_zero hz]
  simp only [View.ld_unit_zero (S := S16x16384) hz]
  refine (pay2_at_9 r hk).trans ?_
  column_value
  refine Eq.trans ?_ (expand_rowErr (fun t => A (ix2 r t)) (ypad (fun t => B (ix2 r t))) 9)
  simp only [win_succ, win_zero, Nat.zero_add]

set_option maxHeartbeats 1000000 in
theorem col_10 (A B : S16x16384.Idx → ℝ) (r : Fin 16) (hk : 10 < 31) :
    out0_2 (F := Ideal) (fun i => ((A i : ℝ) : EReal)) (fun i => ((B i : ℝ) : EReal)) (ix2 r ⟨10, hk⟩)
      = Ideal.div ((rowErr (fun t => A (ix2 r t)) (ypad (fun t => B (ix2 r t))) 10 : ℝ) : EReal)
          (Ideal.ofBits .f32 0x46800000#32) := by
  unfold out0_2
  rw [View.canon_unit_zero hz]
  simp only [View.ld_unit_zero (S := S16x16384) hz]
  refine (pay2_at_10 r hk).trans ?_
  column_value
  refine Eq.trans ?_ (expand_rowErr (fun t => A (ix2 r t)) (ypad (fun t => B (ix2 r t))) 10)
  simp only [win_succ, win_zero, Nat.zero_add]

set_option maxHeartbeats 1000000 in
theorem col_11 (A B : S16x16384.Idx → ℝ) (r : Fin 16) (hk : 11 < 31) :
    out0_2 (F := Ideal) (fun i => ((A i : ℝ) : EReal)) (fun i => ((B i : ℝ) : EReal)) (ix2 r ⟨11, hk⟩)
      = Ideal.div ((rowErr (fun t => A (ix2 r t)) (ypad (fun t => B (ix2 r t))) 11 : ℝ) : EReal)
          (Ideal.ofBits .f32 0x46800000#32) := by
  unfold out0_2
  rw [View.canon_unit_zero hz]
  simp only [View.ld_unit_zero (S := S16x16384) hz]
  refine (pay2_at_11 r hk).trans ?_
  column_value
  refine Eq.trans ?_ (expand_rowErr (fun t => A (ix2 r t)) (ypad (fun t => B (ix2 r t))) 11)
  simp only [win_succ, win_zero, Nat.zero_add]

set_option maxHeartbeats 1000000 in
theorem col_12 (A B : S16x16384.Idx → ℝ) (r : Fin 16) (hk : 12 < 31) :
    out0_2 (F := Ideal) (fun i => ((A i : ℝ) : EReal)) (fun i => ((B i : ℝ) : EReal)) (ix2 r ⟨12, hk⟩)
      = Ideal.div ((rowErr (fun t => A (ix2 r t)) (ypad (fun t => B (ix2 r t))) 12 : ℝ) : EReal)
          (Ideal.ofBits .f32 0x46800000#32) := by
  unfold out0_2
  rw [View.canon_unit_zero hz]
  simp only [View.ld_unit_zero (S := S16x16384) hz]
  refine (pay2_at_12 r hk).trans ?_
  column_value
  refine Eq.trans ?_ (expand_rowErr (fun t => A (ix2 r t)) (ypad (fun t => B (ix2 r t))) 12)
  simp only [win_succ, win_zero, Nat.zero_add]

set_option maxHeartbeats 1000000 in
theorem col_13 (A B : S16x16384.Idx → ℝ) (r : Fin 16) (hk : 13 < 31) :
    out0_2 (F := Ideal) (fun i => ((A i : ℝ) : EReal)) (fun i => ((B i : ℝ) : EReal)) (ix2 r ⟨13, hk⟩)
      = Ideal.div ((rowErr (fun t => A (ix2 r t)) (ypad (fun t => B (ix2 r t))) 13 : ℝ) : EReal)
          (Ideal.ofBits .f32 0x46800000#32) := by
  unfold out0_2
  rw [View.canon_unit_zero hz]
  simp only [View.ld_unit_zero (S := S16x16384) hz]
  refine (pay2_at_13 r hk).trans ?_
  column_value
  refine Eq.trans ?_ (expand_rowErr (fun t => A (ix2 r t)) (ypad (fun t => B (ix2 r t))) 13)
  simp only [win_succ, win_zero, Nat.zero_add]

set_option maxHeartbeats 1000000 in
theorem col_14 (A B : S16x16384.Idx → ℝ) (r : Fin 16) (hk : 14 < 31) :
    out0_2 (F := Ideal) (fun i => ((A i : ℝ) : EReal)) (fun i => ((B i : ℝ) : EReal)) (ix2 r ⟨14, hk⟩)
      = Ideal.div ((rowErr (fun t => A (ix2 r t)) (ypad (fun t => B (ix2 r t))) 14 : ℝ) : EReal)
          (Ideal.ofBits .f32 0x46800000#32) := by
  unfold out0_2
  rw [View.canon_unit_zero hz]
  simp only [View.ld_unit_zero (S := S16x16384) hz]
  refine (pay2_at_14 r hk).trans ?_
  column_value
  refine Eq.trans ?_ (expand_rowErr (fun t => A (ix2 r t)) (ypad (fun t => B (ix2 r t))) 14)
  simp only [win_succ, win_zero, Nat.zero_add]

set_option maxHeartbeats 1000000 in
theorem col_15 (A B : S16x16384.Idx → ℝ) (r : Fin 16) (hk : 15 < 31) :
    out0_2 (F := Ideal) (fun i => ((A i : ℝ) : EReal)) (fun i => ((B i : ℝ) : EReal)) (ix2 r ⟨15, hk⟩)
      = Ideal.div ((rowErr (fun t => A (ix2 r t)) (ypad (fun t => B (ix2 r t))) 15 : ℝ) : EReal)
          (Ideal.ofBits .f32 0x46800000#32) := by
  unfold out0_2
  rw [View.canon_unit_zero hz]
  simp only [View.ld_unit_zero (S := S16x16384) hz]
  refine (pay2_at_15 r hk).trans ?_
  column_value
  refine Eq.trans ?_ (expand_rowErr (fun t => A (ix2 r t)) (ypad (fun t => B (ix2 r t))) 15)
  simp only [win_succ, win_zero, Nat.zero_add]

end Cert.ShiftMse.Kernel

end
-- ==== Proof.KernelColsC.lean ====
/-
  The kernel body's output block, columns 16 to 23, for real inputs.

  Column `k` of the block the kernel body stores holds, for each of its 16 rows, `((∑ a² - 2 ∑ a·p(k + ·)) + W k) / 16384`:
  `a` the row of predictions, `p` the row of targets padded by 15 zeros on each side, `W k` the window sum of `p²` reached
  from `W 0` by `k` sliding steps, each dropping one square and adding one.  For real inputs every intermediate value is a
  real number; the numerator is then the expanded square with its sliding window, which is the sum of squared differences
  `∑ (a t - p (k + t))²`.  The columns are printed one after the other, so the same evaluation is run once per column: unfold
  the column's operations down to its three row sums, read the row sums, read the padded targets, gather the real
  arithmetic under one coercion, and recognise the expanded square.
-/
import proofs.«144521_j1151051236044_2_alg».proof.Proof.KernelIdealFrame
import proofs.«144521_j1151051236044_2_alg».proof.Proof.KernelReads
import proofs.«144521_j1151051236044_2_alg».proof.Proof.MseArray

noncomputable section

namespace Cert.ShiftMse.Kernel

open Idealize.ShloMosaic Idealize.ShloMosaic.ValueIdx Cert.KernelIdeal Cert.KernelIdeal.Gen Cert.KernelIdeal.GenP Cert.ShiftMse
open scoped BigOperators

-- The evaluation of one column's numerator down to a single coerced real expression.
local macro "column_value" : tactic => `(tactic| (
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75,
    divf, addf, subf, mulf, broadcast, slice2_axis1_eq, pay3_coe, Ideal.divf_def, Ideal.addf_def, Ideal.subf_def,
    Ideal.mulf_def, Ideal.ofBits_def, ofBits_two, Fin.val_zero, Nat.add_zero, Nat.zero_add]
  rw [rowsum_col, rowsum_col, rowsum_col]
  simp only [mulf, slice2_axis1_eq, pay3_coe, Ideal.mulf_def, Nat.zero_add]
  simp only [← EReal.coe_mul, ← EReal.coe_add, ← EReal.coe_sub, ← coe_sum]
  refine congrArg (fun z : ℝ => Ideal.div (z : EReal) (Ideal.ofBits .f32 0x46800000#32)) ?_))

set_option maxHeartbeats 1000000 in
theorem col_16 (A B : S16x16384.Idx → ℝ) (r : Fin 16) (hk : 16 < 31) :
    out0_2 (F := Ideal) (fun i => ((A i : ℝ) : EReal)) (fun i => ((B i : ℝ) : EReal)) (ix2 r ⟨16, hk⟩)
      = Ideal.div ((rowErr (fun t => A (ix2 r t)) (ypad (fun t => B (ix2 r t))) 16 : ℝ) : EReal)
          (Ideal.ofBits .f32 0x46800000#32) := by
  unfold out0_2
  rw [View.canon_unit_zero hz]
  simp only [View.ld_unit_zero (S := S16x16384) hz]
  refine (pay2_at_16 r hk).trans ?_
  column_value
  refine Eq.trans ?_ (expand_rowErr (fun t => A (ix2 r t)) (ypad (fun t => B (ix2 r t))) 16)
  simp only [win_succ, win_zero, Nat.zero_add]

set_option maxHeartbeats 1000000 in
theorem col_17 (A B : S16x16384.Idx → ℝ) (r : Fin 16) (hk : 17 < 31) :
    out0_2 (F := Ideal) (fun i => ((A i : ℝ) : EReal)) (fun i => ((B i : ℝ) : EReal)) (ix2 r ⟨17, hk⟩)
      = Ideal.div ((rowErr (fun t => A (ix2 r t)) (ypad (fun t => B (ix2 r t))) 17 : ℝ) : EReal)
          (Ideal.ofBits .f32 0x46800000#32) := by
  unfold out0_2
  rw [View.canon_unit_zero hz]
  simp only [View.ld_unit_zero (S := S16x16384) hz]
  refine (pay2_at_17 r hk).trans ?_
  column_value
  refine Eq.trans ?_ (expand_rowErr (fun t => A (ix2 r t)) (ypad (fun t => B (ix2 r t))) 17)
  simp only [win_succ, win_zero, Nat.zero_add]

set_option maxHeartbeats 1000000 in
theorem col_18 (A B : S16x16384.Idx → ℝ) (r : Fin 16) (hk : 18 < 31) :
    out0_2 (F := Ideal) (fun i => ((A i : ℝ) : EReal)) (fun i => ((B i : ℝ) : EReal)) (ix2 r ⟨18, hk⟩)
      = Ideal.div ((rowErr (fun t => A (ix2 r t)) (ypad (fun t => B (ix2 r t))) 18 : ℝ) : EReal)
          (Ideal.ofBits .f32 0x46800000#32) := by
  unfold out0_2
  rw [View.canon_unit_zero hz]
  simp only [View.ld_unit_zero (S := S16x16384) hz]
  refine (pay2_at_18 r hk).trans ?_
  column_value
  refine Eq.trans ?_ (expand_rowErr (fun t => A (ix2 r t)) (ypad (fun t => B (ix2 r t))) 18)
  simp only [win_succ, win_zero, Nat.zero_add]

set_option maxHeartbeats 1000000 in
theorem col_19 (A B : S16x16384.Idx → ℝ) (r : Fin 16) (hk : 19 < 31) :
    out0_2 (F := Ideal) (fun i => ((A i : ℝ) : EReal)) (fun i => ((B i : ℝ) : EReal)) (ix2 r ⟨19, hk⟩)
      = Ideal.div ((rowErr (fun t => A (ix2 r t)) (ypad (fun t => B (ix2 r t))) 19 : ℝ) : EReal)
          (Ideal.ofBits .f32 0x46800000#32) := by
  unfold out0_2
  rw [View.canon_unit_zero hz]
  simp only [View.ld_unit_zero (S := S16x16384) hz]
  refine (pay2_at_19 r hk).trans ?_
  column_value
  refine Eq.trans ?_ (expand_rowErr (fun t => A (ix2 r t)) (ypad (fun t => B (ix2 r t))) 19)
  simp only [win_succ, win_zero, Nat.zero_add]

set_option maxHeartbeats 1000000 in
theorem col_20 (A B : S16x16384.Idx → ℝ) (r : Fin 16) (hk : 20 < 31) :
    out0_2 (F := Ideal) (fun i => ((A i : ℝ) : EReal)) (fun i => ((B i : ℝ) : EReal)) (ix2 r ⟨20, hk⟩)
      = Ideal.div ((rowErr (fun t => A (ix2 r t)) (ypad (fun t => B (ix2 r t))) 20 : ℝ) : EReal)
          (Ideal.ofBits .f32 0x46800000#32) := by
  unfold out0_2
  rw [View.canon_unit_zero hz]
  simp only [View.ld_unit_zero (S := S16x16384) hz]
  refine (pay2_at_20 r hk).trans ?_
  column_value
  refine Eq.trans ?_ (expand_rowErr (fun t => A (ix2 r t)) (ypad (fun t => B (ix2 r t))) 20)
  simp only [win_succ, win_zero, Nat.zero_add]

set_option maxHeartbeats 1000000 in
theorem col_21 (A B : S16x16384.Idx → ℝ) (r : Fin 16) (hk : 21 < 31) :
    out0_2 (F := Ideal) (fun i => ((A i : ℝ) : EReal)) (fun i => ((B i : ℝ) : EReal)) (ix2 r ⟨21, hk⟩)
      = Ideal.div ((rowErr (fun t => A (ix2 r t)) (ypad (fun t => B (ix2 r t))) 21 : ℝ) : EReal)
          (Ideal.ofBits .f32 0x46800000#32) := by
  unfold out0_2
  rw [View.canon_unit_zero hz]
  simp only [View.ld_unit_zero (S := S16x16384) hz]
  refine (pay2_at_21 r hk).trans ?_
  column_value
  refine Eq.trans ?_ (expand_rowErr (fun t => A (ix2 r t)) (ypad (fun t => B (ix2 r t))) 21)
  simp only [win_succ, win_zero, Nat.zero_add]

set_option maxHeartbeats 1000000 in
theorem col_22 (A B : S16x16384.Idx → ℝ) (r : Fin 16) (hk : 22 < 31) :
    out0_2 (F := Ideal) (fun i => ((A i : ℝ) : EReal)) (fun i => ((B i : ℝ) : EReal)) (ix2 r ⟨22, hk⟩)
      = Ideal.div ((rowErr (fun t => A (ix2 r t)) (ypad (fun t => B (ix2 r t))) 22 : ℝ) : EReal)
          (Ideal.ofBits .f32 0x46800000#32) := by
  unfold out0_2
  rw [View.canon_unit_zero hz]
  simp only [View.ld_unit_zero (S := S16x16384) hz]
  refine (pay2_at_22 r hk).trans ?_
  column_value
  refine Eq.trans ?_ (expand_rowErr (fun t => A (ix2 r t)) (ypad (fun t => B (ix2 r t))) 22)
  simp only [win_succ, win_zero, Nat.zero_add]

set_option maxHeartbeats 1000000 in
theorem col_23 (A B : S16x16384.Idx → ℝ) (r : Fin 16) (hk : 23 < 31) :
    out0_2 (F := Ideal) (fun i => ((A i : ℝ) : EReal)) (fun i => ((B i : ℝ) : EReal)) (ix2 r ⟨23, hk⟩)
      = Ideal.div ((rowErr (fun t => A (ix2 r t)) (ypad (fun t => B (ix2 r t))) 23 : ℝ) : EReal)
          (Ideal.ofBits .f32 0x46800000#32) := by
  unfold out0_2
  rw [View.canon_unit_zero hz]
  simp only [View.ld_unit_zero (S := S16x16384) hz]
  refine (pay2_at_23 r hk).trans ?_
  column_value
  refine Eq.trans ?_ (expand_rowErr (fun t => A (ix2 r t)) (ypad (fun t => B (ix2 r t))) 23)
  simp only [win_succ, win_zero, Nat.zero_add]

end Cert.ShiftMse.Kernel

end
-- ==== Proof.KernelColsD.lean ====
/-
  The kernel body's output block, columns 24 to 30, for real inputs.

  Column `k` of the block the kernel body stores holds, for each of its 16 rows, `((∑ a² - 2 ∑ a·p(k + ·)) + W k) / 16384`:
  `a` the row of predictions, `p` the row of targets padded by 15 zeros on each side, `W k` the window sum of `p²` reached
  from `W 0` by `k` sliding steps, each dropping one square and adding one.  For real inputs every intermediate value is a
  real number; the numerator is then the expanded square with its sliding window, which is the sum of squared differences
  `∑ (a t - p (k + t))²`.  The columns are printed one after the other, so the same evaluation is run once per column: unfold
  the column's operations down to its three row sums, read the row sums, read the padded targets, gather the real
  arithmetic under one coercion, and recognise the expanded square.
-/
import proofs.«144521_j1151051236044_2_alg».proof.Proof.KernelIdealFrame
import proofs.«144521_j1151051236044_2_alg».proof.Proof.KernelReads
import proofs.«144521_j1151051236044_2_alg».proof.Proof.MseArray

noncomputable section

namespace Cert.ShiftMse.Kernel

open Idealize.ShloMosaic Idealize.ShloMosaic.ValueIdx Cert.KernelIdeal Cert.KernelIdeal.Gen Cert.KernelIdeal.GenP Cert.ShiftMse
open scoped BigOperators

-- The evaluation of one column's numerator down to a single coerced real expression.
local macro "column_value" : tactic => `(tactic| (
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75,
    divf, addf, subf, mulf, broadcast, slice2_axis1_eq, pay3_coe, Ideal.divf_def, Ideal.addf_def, Ideal.subf_def,
    Ideal.mulf_def, Ideal.ofBits_def, ofBits_two, Fin.val_zero, Nat.add_zero, Nat.zero_add]
  rw [rowsum_col, rowsum_col, rowsum_col]
  simp only [mulf, slice2_axis1_eq, pay3_coe, Ideal.mulf_def, Nat.zero_add]
  simp only [← EReal.coe_mul, ← EReal.coe_add, ← EReal.coe_sub, ← coe_sum]
  refine congrArg (fun z : ℝ => Ideal.div (z : EReal) (Ideal.ofBits .f32 0x46800000#32)) ?_))

set_option maxHeartbeats 1000000 in
theorem col_24 (A B : S16x16384.Idx → ℝ) (r : Fin 16) (hk : 24 < 31) :
    out0_2 (F := Ideal) (fun i => ((A i : ℝ) : EReal)) (fun i => ((B i : ℝ) : EReal)) (ix2 r ⟨24, hk⟩)
      = Ideal.div ((rowErr (fun t => A (ix2 r t)) (ypad (fun t => B (ix2 r t))) 24 : ℝ) : EReal)
          (Ideal.ofBits .f32 0x46800000#32) := by
  unfold out0_2
  rw [View.canon_unit_zero hz]
  simp only [View.ld_unit_zero (S := S16x16384) hz]
  refine (pay2_at_24 r hk).trans ?_
  column_value
  refine Eq.trans ?_ (expand_rowErr (fun t => A (ix2 r t)) (ypad (fun t => B (ix2 r t))) 24)
  simp only [win_succ, win_zero, Nat.zero_add]

set_option maxHeartbeats 1000000 in
theorem col_25 (A B : S16x16384.Idx → ℝ) (r : Fin 16) (hk : 25 < 31) :
    out0_2 (F := Ideal) (fun i => ((A i : ℝ) : EReal)) (fun i => ((B i : ℝ) : EReal)) (ix2 r ⟨25, hk⟩)
      = Ideal.div ((rowErr (fun t => A (ix2 r t)) (ypad (fun t => B (ix2 r t))) 25 : ℝ) : EReal)
          (Ideal.ofBits .f32 0x46800000#32) := by
  unfold out0_2
  rw [View.canon_unit_zero hz]
  simp only [View.ld_unit_zero (S := S16x16384) hz]
  refine (pay2_at_25 r hk).trans ?_
  column_value
  refine Eq.trans ?_ (expand_rowErr (fun t => A (ix2 r t)) (ypad (fun t => B (ix2 r t))) 25)
  simp only [win_succ, win_zero, Nat.zero_add]

set_option maxHeartbeats 1000000 in
theorem col_26 (A B : S16x16384.Idx → ℝ) (r : Fin 16) (hk : 26 < 31) :
    out0_2 (F := Ideal) (fun i => ((A i : ℝ) : EReal)) (fun i => ((B i : ℝ) : EReal)) (ix2 r ⟨26, hk⟩)
      = Ideal.div ((rowErr (fun t => A (ix2 r t)) (ypad (fun t => B (ix2 r t))) 26 : ℝ) : EReal)
          (Ideal.ofBits .f32 0x46800000#32) := by
  unfold out0_2
  rw [View.canon_unit_zero hz]
  simp only [View.ld_unit_zero (S := S16x16384) hz]
  refine (pay2_at_26 r hk).trans ?_
  column_value
  refine Eq.trans ?_ (expand_rowErr (fun t => A (ix2 r t)) (ypad (fun t => B (ix2 r t))) 26)
  simp only [win_succ, win_zero, Nat.zero_add]

set_option maxHeartbeats 1000000 in
theorem col_27 (A B : S16x16384.Idx → ℝ) (r : Fin 16) (hk : 27 < 31) :
    out0_2 (F := Ideal) (fun i => ((A i : ℝ) : EReal)) (fun i => ((B i : ℝ) : EReal)) (ix2 r ⟨27, hk⟩)
      = Ideal.div ((rowErr (fun t => A (ix2 r t)) (ypad (fun t => B (ix2 r t))) 27 : ℝ) : EReal)
          (Ideal.ofBits .f32 0x46800000#32) := by
  unfold out0_2
  rw [View.canon_unit_zero hz]
  simp only [View.ld_unit_zero (S := S16x16384) hz]
  refine (pay2_at_27 r hk).trans ?_
  column_value
  refine Eq.trans ?_ (expand_rowErr (fun t => A (ix2 r t)) (ypad (fun t => B (ix2 r t))) 27)
  simp only [win_succ, win_zero, Nat.zero_add]

set_option maxHeartbeats 1000000 in
theorem col_28 (A B : S16x16384.Idx → ℝ) (r : Fin 16) (hk : 28 < 31) :
    out0_2 (F := Ideal) (fun i => ((A i : ℝ) : EReal)) (fun i => ((B i : ℝ) : EReal)) (ix2 r ⟨28, hk⟩)
      = Ideal.div ((rowErr (fun t => A (ix2 r t)) (ypad (fun t => B (ix2 r t))) 28 : ℝ) : EReal)
          (Ideal.ofBits .f32 0x46800000#32) := by
  unfold out0_2
  rw [View.canon_unit_zero hz]
  simp only [View.ld_unit_zero (S := S16x16384) hz]
  refine (pay2_at_28 r hk).trans ?_
  column_value
  refine Eq.trans ?_ (expand_rowErr (fun t => A (ix2 r t)) (ypad (fun t => B (ix2 r t))) 28)
  simp only [win_succ, win_zero, Nat.zero_add]

set_option maxHeartbeats 1000000 in
theorem col_29 (A B : S16x16384.Idx → ℝ) (r : Fin 16) (hk : 29 < 31) :
    out0_2 (F := Ideal) (fun i => ((A i : ℝ) : EReal)) (fun i => ((B i : ℝ) : EReal)) (ix2 r ⟨29, hk⟩)
      = Ideal.div ((rowErr (fun t => A (ix2 r t)) (ypad (fun t => B (ix2 r t))) 29 : ℝ) : EReal)
          (Ideal.ofBits .f32 0x46800000#32) := by
  unfold out0_2
  rw [View.canon_unit_zero hz]
  simp only [View.ld_unit_zero (S := S16x16384) hz]
  refine (pay2_at_29 r hk).trans ?_
  column_value
  refine Eq.trans ?_ (expand_rowErr (fun t => A (ix2 r t)) (ypad (fun t => B (ix2 r t))) 29)
  simp only [win_succ, win_zero, Nat.zero_add]

set_option maxHeartbeats 1000000 in
theorem col_30 (A B : S16x16384.Idx → ℝ) (r : Fin 16) (hk : 30 < 31) :
    out0_2 (F := Ideal) (fun i => ((A i : ℝ) : EReal)) (fun i => ((B i : ℝ) : EReal)) (ix2 r ⟨30, hk⟩)
      = Ideal.div ((rowErr (fun t => A (ix2 r t)) (ypad (fun t => B (ix2 r t))) 30 : ℝ) : EReal)
          (Ideal.ofBits .f32 0x46800000#32) := by
  unfold out0_2
  rw [View.canon_unit_zero hz]
  simp only [View.ld_unit_zero (S := S16x16384) hz]
  refine (pay2_at_30 r hk).trans ?_
  column_value
  refine Eq.trans ?_ (expand_rowErr (fun t => A (ix2 r t)) (ypad (fun t => B (ix2 r t))) 30)
  simp only [win_succ, win_zero, Nat.zero_add]

end Cert.ShiftMse.Kernel

end
-- ==== Proof.KernelColumns.lean ====
/-
  What the kernel body leaves in its output block, entry by entry, for real inputs: row `r`, column `s` holds the sum over
  the row of the squared differences between the predictions and the padded targets shifted by `s`, divided by 16384.
  The 31 columns are read in four modules; this one puts them together.
-/
import proofs.«144521_j1151051236044_2_alg».proof.Proof.KernelColsA
import proofs.«144521_j1151051236044_2_alg».proof.Proof.KernelColsB
import proofs.«144521_j1151051236044_2_alg».proof.Proof.KernelColsC
import proofs.«144521_j1151051236044_2_alg».proof.Proof.KernelColsD

noncomputable section

namespace Cert.ShiftMse.Kernel

open Idealize.ShloMosaic Idealize.ShloMosaic.ValueIdx Cert.KernelIdeal Cert.KernelIdeal.Gen Cert.KernelIdeal.GenP Cert.ShiftMse
open scoped BigOperators

/-- The output block of real input blocks `A` (predictions) and `B` (targets), at row `r` and column `s`. -/
theorem out_apply (A B : S16x16384.Idx → ℝ) (r : Fin 16) (s : Fin 31) :
    out0_2 (F := Ideal) (fun i => ((A i : ℝ) : EReal)) (fun i => ((B i : ℝ) : EReal)) (ix2 r s)
      = Ideal.div ((rowErr (fun t => A (ix2 r t)) (ypad (fun t => B (ix2 r t))) s.val : ℝ) : EReal)
          (Ideal.ofBits .f32 0x46800000#32) := by
  obtain ⟨k, hk⟩ := s
  interval_cases k
  · exact col_0 A B r hk
  · exact col_1 A B r hk
  · exact col_2 A B r hk
  · exact col_3 A B r hk
  · exact col_4 A B r hk
  · exact col_5 A B r hk
  · exact col_6 A B r hk
  · exact col_7 A B r hk
  · exact col_8 A B r hk
  · exact col_9 A B r hk
  · exact col_10 A B r hk
  · exact col_11 A B r hk
  · exact col_12 A B r hk
  · exact col_13 A B r hk
  · exact col_14 A B r hk
  · exact col_15 A B r hk
  · exact col_16 A B r hk
  · exact col_17 A B r hk
  · exact col_18 A B r hk
  · exact col_19 A B r hk
  · exact col_20 A B r hk
  · exact col_21 A B r hk
  · exact col_22 A B r hk
  · exact col_23 A B r hk
  · exact col_24 A B r hk
  · exact col_25 A B r hk
  · exact col_26 A B r hk
  · exact col_27 A B r hk
  · exact col_28 A B r hk
  · exact col_29 A B r hk
  · exact col_30 A B r hk

end Cert.ShiftMse.Kernel

end
-- ==== Proof.KernelArray.lean ====
/-
  From the blocks the grid points write back to the whole result array of the kernel.

  The grid has 8 points; point `t` reads rows 16 t … 16 t + 15 of the two inputs and writes rows 16 t … 16 t + 15
  (all 31 columns) of the result.  For real inputs the block a point writes is the corresponding block of the
  array of mean squared errors, and the 8 blocks cover the result, so after the region the result array is that
  array.
-/
import proofs.«144521_j1151051236044_2_alg».proof.Proof.KernelColumns
import proofs.«144521_j1151051236044_2_alg».proof.Proof.MseArray

noncomputable section

namespace Cert.ShiftMse.Kernel

open Idealize.ShloMosaic Idealize.ShloMosaic.TcCoe Idealize.ShloMosaic.ValueIdx Idealize.SL.Sem
open Cert.KernelIdeal Cert.KernelIdeal.Gen Cert.KernelIdeal.GenP Cert.ShiftMse
open Idealize.ShloMosaic.Pipeline (Dat)
open scoped BigOperators

variable (m : (ℓ : Loc nD τ sig) → Buf (Elt Ideal) ℓ)

/-- The printed index maps, decided over the grid: at point `t` every window's block index is `t` on the rows and 0 on
    the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Where entry `y` of the block of rows 16 q … 16 q + 15 sits in a [128, 16384] array. -/
def blockIdx (q : Nat) (hq : q < 8) (y : S16x16384.Idx) : (⟨2, ![128, 16384]⟩ : Shape).Idx :=
  ix2 ⟨16 * q + (y 0).val, by have := idx2_lt0 y; omega⟩ ⟨(y 1).val, idx2_lt1 y⟩

/-- WHAT POINT `t` WRITES BACK, for real inputs, is block `t` of the array of mean squared errors. -/
theorem flushed_eq (c : Dev nD) (A0 A1 : (⟨2, ![128, 16384]⟩ : Shape).Idx → ℝ)
    (h0 : m ((c : Thread nD τ).loc main_arg0) = fun i => ((A0 i : ℝ) : EReal))
    (h1 : m ((c : Thread nD τ).loc main_arg1) = fun i => ((A1 i : ℝ) : EReal)) (t : Fin cfg0.N) :
    (dats m 0 c).flushed 2 t = ((cfg0.win 2).blk t).view.read (Elt Ideal) (mseArr A0 A1) := by
  show (cfg0.win 2).cut (grid0.coords t) ((dats m 0 c).after 2 t) = _
  rw [after0_2]
  have ht : t.val < 8 := t.isLt
  obtain ⟨f00, f01, f10, f11, f20, f21⟩ := idx_facts t
  funext j
  obtain ⟨r, s, rfl⟩ : ∃ (r : Fin 16) (s : Fin 31), j = ix2 r s := ⟨j 0, j 1, eq_ix2 j⟩
  show out0_2 (iblk m c 0 t) (iblk m c 1 t) (ix2 r s) = mseArr A0 A1 (((cfg0.win 2).blk t).view.emb (ix2 r s))
  have e0 : (iblk m c 0 t : Vec Ideal S16x16384 .f32) = fun y => ((A0 (blockIdx t.val ht y) : ℝ) : EReal) := by
    funext y
    show V m c main_arg0 (((cfg0.win 0).blk t).view.emb y) = _
    rw [V_main_arg0, h0]
    refine congrArg (fun i => ((A0 i : ℝ) : EReal)) ?_
    funext a; apply Fin.ext
    match a with
    | ⟨0, _⟩ => show win0_0.index t (0 : Fin 2) * 16 + 1 * (y 0).val = 16 * t.val + (y 0).val; omega
    | ⟨1, _⟩ => show win0_0.index t (1 : Fin 2) * 16384 + 1 * (y 1).val = (y 1).val; omega
  have e1 : (iblk m c 1 t : Vec Ideal S16x16384 .f32) = fun y => ((A1 (blockIdx t.val ht y) : ℝ) : EReal) := by
    funext y
    show V m c main_arg1 (((cfg0.win 1).blk t).view.emb y) = _
    rw [V_main_arg1, h1]
    refine congrArg (fun i => ((A1 i : ℝ) : EReal)) ?_
    funext a; apply Fin.ext
    match a with
    | ⟨0, _⟩ => show win0_1.index t (0 : Fin 2) * 16 + 1 * (y 0).val = 16 * t.val + (y 0).val; omega
    | ⟨1, _⟩ => show win0_1.index t (1 : Fin 2) * 16384 + 1 * (y 1).val = (y 1).val; omega
  refine (congrArg₂ (fun u v : Vec Ideal S16x16384 .f32 => out0_2 u v (ix2 r s)) e0 e1).trans ?_
  refine (out_apply _ _ r s).trans ?_
  have ei : ((cfg0.win 2).blk t).view.emb (ix2 r s) = ix2 (⟨16 * t.val + r.val, by omega⟩ : Fin 128) s := by
    funext a; apply Fin.ext
    match a with
    | ⟨0, _⟩ => show win0_2.index t (0 : Fin 2) * 16 + 1 * r.val = 16 * t.val + r.val; omega
    | ⟨1, _⟩ => show win0_2.index t (1 : Fin 2) * 31 + 1 * s.val = s.val; omega
  rw [ei, mseArr_apply]
  rfl

/-- An index of the result array is in point `t`'s block iff each coordinate is in the block's range on its axis. -/
theorem mem_blk (t : Fin cfg0.N) (i : S128x31.Idx) :
    i ∈ ((cfg0.win 2).blk t).view.set ↔ ∀ a : Fin 2, win0_2.index t a * S16x31.size a ≤ (i a).val
      ∧ (i a).val < win0_2.index t a * S16x31.size a + S16x31.size a := by
  show i ∈ ((View.whole main_v0).slice (win0_2.rect t)).set ↔ _
  rw [View.set_slice_whole, Rect.mem_set_unit]
  exact Iff.rfl

/-- Every entry of the result is written back by some point: row `b` by point `b / 16`. -/
theorem cover (i : S128x31.Idx) :
    ∃ t : Fin cfg0.N, (cfg0.win 2).flush t = true ∧ i ∈ ((cfg0.win 2).blk t).view.set := by
  have hi0 : (i 0).val < 128 := idx2_lt0 i
  have hi1 : (i 1).val < 31 := idx2_lt1 i
  have hq : (i 0).val / 16 < 8 := by omega
  have hq' : (i 0).val / 16 < cfg0.N := hq
  refine ⟨⟨(i 0).val / 16, hq'⟩, flush0_2 _, ?_⟩
  obtain ⟨-, -, -, -, f20, f21⟩ := idx_facts ⟨(i 0).val / 16, hq'⟩
  have g0 : win0_2.index (⟨(i 0).val / 16, hq'⟩ : Fin cfg0.N) (0 : Fin 2) = (i 0).val / 16 := f20
  rw [mem_blk]
  intro a
  match a with
  | ⟨0, _⟩ =>
    show win0_2.index (⟨(i 0).val / 16, hq'⟩ : Fin cfg0.N) (0 : Fin 2) * 16 ≤ (i 0).val
      ∧ (i 0).val < win0_2.index (⟨(i 0).val / 16, hq'⟩ : Fin cfg0.N) (0 : Fin 2) * 16 + 16
    omega
  | ⟨1, _⟩ =>
    show win0_2.index (⟨(i 0).val / 16, hq'⟩ : Fin cfg0.N) (1 : Fin 2) * 31 ≤ (i 1).val
      ∧ (i 1).val < win0_2.index (⟨(i 0).val / 16, hq'⟩ : Fin cfg0.N) (1 : Fin 2) * 31 + 31
    omega

/-- THE RESULT ARRAY after the region, for real inputs: the array of mean squared errors. -/
theorem final (c : Dev nD) (A0 A1 : (⟨2, ![128, 16384]⟩ : Shape).Idx → ℝ)
    (h0 : m ((c : Thread nD τ).loc main_arg0) = fun i => ((A0 i : ℝ) : EReal))
    (h1 : m ((c : Thread nD τ).loc main_arg1) = fun i => ((A1 i : ℝ) : EReal)) :
    (dats m 0 c).arrAt 2 cfg0.N = mseArr A0 A1 :=
  (dats m 0 c).arrAt_eq_of_cover 2 (mseArr A0 A1) (fun t _ => flushed_eq m c A0 A1 h0 h1 t) cover

end Cert.ShiftMse.Kernel

end
-- ==== Proof.Tail.lean ====
/-
  The host operations both programs end with, as one function of the [128, 31] array of per-shift mean squared
  errors: multiply entrywise by the [128, 31] array of mixture weights (a function of the two remaining arguments
  only, whose form plays no part), sum over the 31 shifts onto zero, sum over the 128 rows onto zero, divide by 128.
-/
import proofs.«144521_j1151051236044_2_alg».proof.Proof.Gen.ReferenceIdeal.Read

noncomputable section

namespace Cert.ShiftMse.Tail

open Cert.ReferenceIdeal Cert.ReferenceIdeal.Gen Cert.ReferenceIdeal.Read
open Idealize.ShloMosaic

/-- The shared tail: the weighted sum over shifts and rows of the array `M`, divided by 128. -/
def tailFn (M : (⟨S128x31, .f32⟩ : BufTy).Contents (Elt Ideal)) (x2 : (⟨S32x31, .f32⟩ : BufTy).Contents (Elt Ideal))
    (x3 : (⟨S128, .i32⟩ : BufTy).Contents (Elt Ideal)) : (⟨S_, .f32⟩ : BufTy).Contents (Elt Ideal) :=
  Host.divf (F := Ideal) (φ := .f32)
    (Host.reduceAdd (F := Ideal) (φ := .f32)
      (Host.reduceAdd (F := Ideal) (φ := .f32) (mulf (F := Ideal) (φ := .f32) M (val_main_v39 (F := Ideal) x2 x3)) (val_main_cst_8 (F := Ideal))
        Facts₀.reducesTo_S128x31_S128_d1 Facts₀.h_S_)
      (val_main_cst_9 (F := Ideal)) Facts₀.reducesTo_S128_S_d0 Facts₀.h_S_)
    (val_main_cst_10 (F := Ideal))

/-- The reference program's result is the shared tail of its per-shift mean squared errors. -/
theorem ref_tail (x0 x1 : (⟨S128x16384, .f32⟩ : BufTy).Contents (Elt Ideal))
    (x2 : (⟨S32x31, .f32⟩ : BufTy).Contents (Elt Ideal)) (x3 : (⟨S128, .i32⟩ : BufTy).Contents (Elt Ideal)) :
    val_main_v43 (F := Ideal) x0 x1 x2 x3 = tailFn (val_main_v21 (F := Ideal) x0 x1) x2 x3 := rfl

end Cert.ShiftMse.Tail

end
-- ==== Proof.TailOps.lean ====
/-
  The kernel program's host operations after its region, applied to any contents of the buffers, are the shared
  tail: of the region's [128, 31] result array and of the two remaining arguments.

  The thirty operations are the same thirty, in the same order, as the ones the reference program ends with; only the
  names of the shape records differ between the two programs, and records with the same fields are equal.  So once
  each operation's result is read off the operations before it, the two terms are one term.
-/
import proofs.«144521_j1151051236044_2_alg».proof.Proof.Gen.KernelIdeal.Launch
import proofs.«144521_j1151051236044_2_alg».proof.Proof.Tail
import Idealize.ShloMosaic.Lib.StableHlo.Run
import Idealize.ShloMosaic.Lib.Pipeline.FrameSuffix

noncomputable section

namespace Cert.ShiftMse.KernelTail

open Cert.KernelIdeal Cert.KernelIdeal.Gen
open Idealize.ShloMosaic Idealize.ShloMosaic.TcCoe Idealize.SL.Sem Idealize.ShloMosaic.StableHlo
open Idealize.ShloMosaic.Pipeline (Dat)

/-- The last buffer after the thirty operations, from any contents `W`: the shared tail of `W` at the region's result
    array and at the last two arguments. -/
theorem after_tail (W : Valuation τ sig (Elt Ideal)) :
    StableHlo.after (hostOps1 (F := Ideal)) W (Proc.devRef .tc main_v22)
      = Cert.ShiftMse.Tail.tailFn (W (Proc.devRef .tc main_v0)) (W (Proc.devRef .tc main_arg2))
          (W (Proc.devRef .tc main_arg3)) := by
  after_results_simp
  rfl

/-- The result buffer after the region and the host operations that follow it, for ANY account `dats` of the region's
    run (what each window's array holds after each grid point) and any contents `V₀` at the region's entry: after the
    region the buffers hold the region's arrays at the windows' arrays and `V₀` elsewhere, the region's result array is
    window 2's, and the last two arguments are no window's array; so the result is the shared tail of window 2's final
    array and of `V₀` at the last two arguments. -/
theorem kernel_tail_of (V₀ : Dev nD → Valuation τ sig (Elt Ideal))
    (dats : (p : Fin 1) → (c : Dev nD) → Dat τ (Elt Ideal) Unit ℕ (UR sig nD τ) ℕ (cfgs p) c) (c : Dev nD) :
    Pipeline.afterTail₀ cfgs dats 0 V₀ [hostOps1] c main_v22
      = Cert.ShiftMse.Tail.tailFn ((dats 0 c).arrAt 2 cfg0.N) (V₀ c (Proc.devRef .tc main_arg2))
          (V₀ c (Proc.devRef .tc main_arg3)) := by
  unfold Pipeline.afterTail₀
  show StableHlo.after hostOps1 _ (Proc.devRef .tc main_v22) = _
  refine (after_tail _).trans ?_
  have h0 := Pipeline.withArrays_arr spec0 launch0.win.arr_inj c (V₀ c) (fun w => (dats 0 c).arrAt w cfg0.N) 2
  have h2 := Pipeline.withArrays_of_ne spec0 c (V₀ c) (fun w => (dats 0 c).arrAt w cfg0.N) main_arg2
    (by exact (by decide : ∀ w, Pipeline.arrRef spec0 w ≠ main_arg2))
  have h3 := Pipeline.withArrays_of_ne spec0 c (V₀ c) (fun w => (dats 0 c).arrAt w cfg0.N) main_arg3
    (by exact (by decide : ∀ w, Pipeline.arrRef spec0 w ≠ main_arg3))
  exact (congrArg (fun M => Cert.ShiftMse.Tail.tailFn M _ _) h0).trans
    ((congrArg (fun x2 => Cert.ShiftMse.Tail.tailFn _ x2 _) h2).trans
      (congrArg (fun x3 => Cert.ShiftMse.Tail.tailFn _ _ x3) h3))

end Cert.ShiftMse.KernelTail

end
-- ==== Proof.RefPad.lean ====
/-
  The reference program's padded target array and its gathered, shifted copy, read at an index.

  The program pads each row of the [128, 16384] target array with 15 zeros in front and 15 behind, giving a
  [128, 16414] array, and then gathers, for every shift s < 31 and position t < 16384, the padded entry in column
  s + t.  The column number is computed in 32-bit words: the word of s plus the word of t is the word of s + t,
  and s + t ≤ 16413 is far below 2 ^ 31, so the word is not negative when read signed, the "negative index" branch
  is not taken, and the clamp into [0, 16413] changes nothing.  So the gathered entry (b, s, t) is the padded
  entry (b, s + t): the target entry (b, s + t - 15) when 15 ≤ s + t < 16399, and zero otherwise.
-/
import proofs.«144521_j1151051236044_2_alg».proof.Proof.Gen.ReferenceIdeal.Read
import Idealize.ShloMosaic.Lib.ValueIdx
import Idealize.ShloMosaic.Lib.KernelVsHost
import Idealize.ShloMosaic.Lib.DynamicIndex

noncomputable section

namespace Cert.ShiftMse.Ref

open Cert.ReferenceIdeal Cert.ReferenceIdeal.Gen Cert.ReferenceIdeal.Read
open Idealize.ShloMosaic Idealize.ShloMosaic.ValueIdx

variable {F : FTy → Type} [FloatOps F]

/-- The padding value is the integer zero converted to a float: zero. -/
theorem padValue_eq : val_main_call0_v0 (F := Ideal) (Shape.Idx.first Facts₀.h_S_) = 0 := by
  show (((0#32 : BitVec 32).toInt : ℝ) : EReal) = 0
  rw [BitVec.toInt_zero, Int.cast_zero, EReal.coe_zero]

/-- The padded array at row `b`, column `j`: the target entry 15 columns to the left when there is one, else zero. -/
theorem pad_apply (x1 : (⟨S128x16384, .f32⟩ : BufTy).Contents (Elt Ideal)) (b : Fin 128) (j : Fin 16414) :
    val_main_v0 (F := Ideal) x1 (ix2 b j)
      = if h : 15 ≤ j.val ∧ j.val - 15 < 16384 then x1 (ix2 b ⟨j.val - 15, h.2⟩) else 0 := by
  unfold val_main_v0
  by_cases h : 15 ≤ j.val ∧ j.val - 15 < 16384
  · -- inside the operand: row b unchanged, column j = 15 + (j - 15)
    rw [dif_pos h]
    exact pad_apply_of_inside _ _ _ x1 _ Facts₀.pads_S128x16384_S128x16414_000_15150 Facts₀.h_S_ (ix2 b j)
      (ix2 b ⟨j.val - 15, h.2⟩) (fun a => match a with
        | ⟨0, _⟩ => by show b.val = 0 + b.val * (0 + 1); omega
        | ⟨1, _⟩ => by show j.val = 15 + (j.val - 15) * (0 + 1); omega)
  · -- outside the operand on the column axis: the padding value
    rw [dif_neg h]
    refine (pad_apply_of_not_inside _ _ _ x1 _ Facts₀.pads_S128x16384_S128x16414_000_15150 Facts₀.h_S_ (ix2 b j)
      (1 : Fin 2) ?_).trans padValue_eq
    intro hin
    have h1 : 15 ≤ j.val := hin.1
    have h3 : (j.val - 15) / (0 + 1) < 16384 := hin.2.2
    exact h ⟨h1, by omega⟩

/-- The column-number word at shift `s`, position `t`: the word of `s + t`.  The sum of the two words is the word
    of the sum; it is below `2 ^ 31`, so it is not negative read signed and the select keeps it. -/
theorem idxWord_apply (s : Fin 31) (t : Fin 16384) :
    val_main_v12 (F := F) (ix2 s t) = BitVec.ofNat 32 (s.val + t.val) := by
  have h7 : val_main_v7 (F := F) (ix2 s t) = BitVec.ofNat 32 (s.val + t.val) := by
    rw [val_main_v7_apply, val_main_v5_apply, val_main_v2_apply, val_main_v1_apply, val_main_v6_apply,
      val_main_v4_apply, val_main_v3_apply]
    show BitVec.ofNat 32 s.val + BitVec.ofNat 32 t.val = _
    rw [← BitVec.ofNat_add]
  have hn : s.val + t.val < 2 ^ 31 := by have := s.isLt; have := t.isLt; omega
  have hlt : (BitVec.ofNat 32 (s.val + t.val)).slt 0#32 = false := by
    simp only [BitVec.slt, BitVec.toInt_zero, decide_eq_false_iff_not, Int.not_lt]
    rw [toInt_ofNat_of_lt hn]; omega
  rw [val_main_v12_apply, val_main_v9_apply, val_main_v8_apply, val_main_c_0_apply, h7]
  show Scalar.select (BitVec.ofBool ((BitVec.ofNat 32 (s.val + t.val)).slt 0#32)) _ _ = _
  rw [hlt]
  exact select_zero _ _

/-- The start-index word the gather reads for shift `s`, position `t`. -/
theorem startWord_apply (s : Fin 31) (t : Fin 16384) :
    val_main_v13 (F := F) (ix3 s t (0 : Fin 1)) = BitVec.ofNat 32 (s.val + t.val) := by
  rw [val_main_v13_apply]
  exact idxWord_apply s t

/-- THE GATHER READ AT `(b, s, t)`: the padded array at row `b`, column `s + t`.  On the row axis the gather has no
    start index and takes the whole row range, so the operand row is the result's first coordinate; on the column axis
    the slice has one entry and starts at the start index read signed and clamped into `[0, 16413]`, which is `s + t`. -/
theorem gather_apply (x1 : (⟨S128x16384, .f32⟩ : BufTy).Contents (Elt Ideal)) (b : Fin 128) (s : Fin 31) (t : Fin 16384) :
    val_main_v14 (F := Ideal) x1 (ix3 b s t)
      = val_main_v0 (F := Ideal) x1 (ix2 b ⟨s.val + t.val, by have := s.isLt; have := t.isLt; omega⟩) := by
  unfold val_main_v14 Host.gather
  refine congrArg (val_main_v0 (F := Ideal) x1) (funext fun a => Fin.ext ?_)
  match a with
  | ⟨0, _⟩ =>
    show GatherDims.start _ _ _ 0 + GatherDims.batchCoord _ _ 0 + GatherDims.offCoord _ _ 0 = b.val
    rw [GatherDims.batchCoord_eq_zero _ _ _ List.not_mem_nil]
    unfold GatherDims.start
    rw [dif_neg (by decide)]
    unfold GatherDims.offCoord
    rw [dif_pos ((GatherDims.mem_sKept _ _).mpr ⟨by decide, List.not_mem_nil⟩)]
    show 0 + 0 + b.val = b.val
    omega
  | ⟨1, _⟩ =>
    show GatherDims.start _ _ _ 1 + GatherDims.batchCoord _ _ 1 + GatherDims.offCoord _ _ 1 = s.val + t.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin S128x16414.rank) ∈ gather_S128x16414_S31x16384x1_S128x31x16384_0_1_n_n_1_2_1281.startIndexMap from List.mem_singleton.mpr rfl)]
    -- the start index is read at `[s, t, 0]`
    have hsi : gather_S128x16414_S31x16384x1_S128x31x16384_0_1_n_n_1_2_1281.siIdx (ix3 b s t) ⟨List.idxOf (1 : Fin S128x16414.rank) gather_S128x16414_S31x16384x1_S128x31x16384_0_1_n_n_1_2_1281.startIndexMap,
        List.idxOf_lt_length_iff.2 (List.mem_singleton.mpr rfl)⟩ = ix3 s t (0 : Fin 1) := by
      funext c; refine Fin.ext ?_
      match c with
      | ⟨0, _⟩ => rfl
      | ⟨1, _⟩ => rfl
      | ⟨2, _⟩ => rfl
    rw [hsi, startWord_apply, toInt_ofNat_of_lt (by have := s.isLt; have := t.isLt; omega)]
    show min ((s.val + t.val : ℕ) : ℤ).toNat (16414 - 1) + 0 + 0 = s.val + t.val
    rw [Int.toNat_natCast]
    have := s.isLt; have := t.isLt; omega

end Cert.ShiftMse.Ref

end
-- ==== Proof.RefMse.lean ====
/-
  The reference program's per-shift mean squared error, read at an index.

  For row b and shift s the program subtracts from the prediction entry (b, t) the gathered entry (b, s, t) — the
  padded target row b at column s + t —, squares the difference, sums the squares over the 16384 positions t onto
  zero, and divides by 16384.  Every step reads one element of each operand, so the result entry (b, s) is that
  expression of the two input arrays.
-/
import proofs.«144521_j1151051236044_2_alg».proof.Proof.Spec
import proofs.«144521_j1151051236044_2_alg».proof.Proof.RefPad

noncomputable section

namespace Cert.ShiftMse.Ref

open Cert.ReferenceIdeal Cert.ReferenceIdeal.Gen Cert.ReferenceIdeal.Read
open Idealize.ShloMosaic Idealize.ShloMosaic.ValueIdx
open scoped BigOperators

/-- The subtraction operand read at `(b, s, t)` is the prediction entry `(b, t)`. -/
theorem idxPred_eq (b : Fin 128) (s : Fin 31) (t : Fin 16384) :
    idx_main_v15 (idx_main_v16 (ix3 b s t)) = ix2 b t := by
  funext a
  match a with
  | ⟨0, _⟩ => rfl
  | ⟨1, _⟩ => rfl

/-- The `t`-th summand's index of result entry `(b, s)` is `(b, s, t)`. -/
theorem idxSum_eq (b : Fin 128) (s : Fin 31) (t : Fin 16384) :
    idx_main_v19 (ix2 b s) t = ix3 b s t := by
  funext a
  match a with
  | ⟨0, _⟩ => rfl
  | ⟨1, _⟩ => rfl
  | ⟨2, _⟩ => rfl

/-- The difference at `(b, s, t)`: prediction `(b, t)` minus the padded target row `b` at column `s + t`. -/
theorem diff_apply (x0 x1 : (⟨S128x16384, .f32⟩ : BufTy).Contents (Elt Ideal)) (b : Fin 128) (s : Fin 31) (t : Fin 16384) :
    val_main_v17 (F := Ideal) x0 x1 (ix3 b s t) = x0 (ix2 b t) - Cert.ShiftMse.padRow x1 b (s.val + t.val) := by
  rw [val_main_v17_apply, val_main_v16_apply, val_main_v15_apply, idxPred_eq, gather_apply, pad_apply]
  rfl

/-- The squared difference at the `t`-th summand of result entry `(b, s)`. -/
theorem sq_apply (x0 x1 : (⟨S128x16384, .f32⟩ : BufTy).Contents (Elt Ideal)) (b : Fin 128) (s : Fin 31) (t : Fin 16384) :
    val_main_v18 (F := Ideal) x0 x1 (idx_main_v19 (ix2 b s) t)
      = (x0 (ix2 b t) - Cert.ShiftMse.padRow x1 b (s.val + t.val)) * (x0 (ix2 b t) - Cert.ShiftMse.padRow x1 b (s.val + t.val)) := by
  rw [idxSum_eq, val_main_v18_apply, diff_apply]
  rfl

/-- THE PER-SHIFT MEAN SQUARED ERROR AT `(b, s)`: zero plus the sum over `t` of the squared differences between
    prediction `(b, t)` and the padded target row `b` at column `s + t`, divided by 16384. -/
theorem mse_apply (x0 x1 : (⟨S128x16384, .f32⟩ : BufTy).Contents (Elt Ideal)) (b : Fin 128) (s : Fin 31) :
    val_main_v21 (F := Ideal) x0 x1 (ix2 b s)
      = Ideal.div (Ideal.ofBits .f32 0x00000000#32 + ∑ t : Fin 16384,
          (x0 (ix2 b t) - Cert.ShiftMse.padRow x1 b (s.val + t.val)) * (x0 (ix2 b t) - Cert.ShiftMse.padRow x1 b (s.val + t.val)))
        (Ideal.ofBits .f32 0x46800000#32) := by
  rw [val_main_v21_apply, val_main_v20_apply, val_main_cst_2_apply, val_main_v19_apply, val_main_cst_apply]
  exact congrArg (fun z => Ideal.div (Ideal.ofBits .f32 0x00000000#32 + z) (Ideal.ofBits .f32 0x46800000#32))
    (Finset.sum_congr rfl fun t _ => sq_apply x0 x1 b s t)

end Cert.ShiftMse.Ref

end
-- ==== Proof.RefArray.lean ====
/-
  The reference's per-shift mean squared error, for real inputs, is the array of mean squared errors.

  The reference pads the targets, gathers the 31 shifted copies, subtracts them from the predictions, squares, sums
  along the row from a zero initial value and divides by 16384.  Read at an entry (the module that reads the pad and
  the gather) this is `(0 + ∑ (a t - p (s + t))²) / 16384` on the extended reals; for real inputs the sum is the
  coercion of the real sum of squared differences.
-/
import proofs.«144521_j1151051236044_2_alg».proof.Proof.RefMse
import proofs.«144521_j1151051236044_2_alg».proof.Proof.MseArray

noncomputable section

namespace Cert.ShiftMse.Ref

open Idealize.ShloMosaic Idealize.ShloMosaic.ValueIdx Cert.ShiftMse
open scoped BigOperators

/-- The reference's mean-squared-error stage of real inputs is `mseArr`. -/
theorem mse_eq (A0 A1 : (⟨2, ![128, 16384]⟩ : Shape).Idx → ℝ) :
    Cert.ReferenceIdeal.Read.val_main_v21 (F := Ideal) (fun i => ((A0 i : ℝ) : EReal)) (fun i => ((A1 i : ℝ) : EReal))
      = mseArr A0 A1 := by
  funext i
  obtain ⟨b, s, rfl⟩ : ∃ (b : Fin 128) (s : Fin 31), i = ix2 b s := ⟨i 0, i 1, eq_ix2 i⟩
  rw [mse_apply, mseArr_apply, Ideal.ofBits_zero_f32, zero_add]
  refine congrArg (fun z : EReal => Ideal.div z (Ideal.ofBits .f32 0x46800000#32)) ?_
  simp only [padRow_coe, ← EReal.coe_sub, ← EReal.coe_mul, ← coe_sum]
  rfl

end Cert.ShiftMse.Ref

end
-- ==== Proof.Finite.lean ====
/-
  From the precondition to "every entry of the two input arrays is a real number".

  The precondition is the conjunction of three tests "every entry of the array has absolute value below +∞", each
  a reduction by "and" of the entrywise comparisons into one truth value.  The conjunction being true makes each test
  true, a true reduction by "and" had a true comparison at every entry, and an extended real whose absolute value
  max x (-x) is below ⊤ is neither ⊤ nor ⊥, hence the coercion of a real number.
-/
import proofs.«144521_j1151051236044_2_alg».proof.Pre_finite_inputs
import Idealize.ShloMosaic.PureOps.Ideal
import Idealize.ShloMosaic.Lib.ReduceAll
import Idealize.ShloMosaic.Lib.ValueIdx

noncomputable section

namespace Cert.ShiftMse.Finite

open Idealize.ShloMosaic Idealize.ShloMosaic.ValueIdx
open Cert.Pre_finite_inputs

variable [Cert.Pre_finite_inputs.Facts]

/-- The scalar shape has one index. -/
instance : Subsingleton S_.Idx := ⟨fun a b => funext fun d => d.elim0⟩

/-- An extended real whose absolute value compares below the word of +∞ is the coercion of a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max x (-x) < ⊤ := by
    by_contra hn
    simp [hn] at h
  rw [max_lt_iff] at hlt
  have h1 : x ≠ ⊤ := hlt.1.ne
  have h2 : x ≠ ⊥ := by
    intro hb
    rw [hb, EReal.neg_bot] at hlt
    exact lt_irrefl _ hlt.2
  exact ⟨x.toReal, (EReal.coe_toReal h1 h2).symm⟩

/-- An array of extended reals each of which is a real is the coercion of an array of reals. -/
theorem array_real (x : (⟨2, ![128, 16384]⟩ : Shape).Idx → EReal) (e : ∀ i, ∃ r : ℝ, x i = (r : EReal)) :
    ∃ A : (⟨2, ![128, 16384]⟩ : Shape).Idx → ℝ, x = fun i => ((A i : ℝ) : EReal) :=
  ⟨fun i => (x i).toReal, funext fun i => by
    obtain ⟨r, hr⟩ := e i
    show x i = (((x i).toReal : ℝ) : EReal)
    rw [hr, EReal.toReal_coe]⟩

/-- Under the precondition both input arrays are arrays of reals. -/
theorem real_of_pre (x0 x1 : (⟨S128x16384, .f32⟩ : BufTy).Contents (Elt Ideal))
    (x2 : (⟨S32x31, .f32⟩ : BufTy).Contents (Elt Ideal)) (x3 : (⟨S128, .i32⟩ : BufTy).Contents (Elt Ideal))
    (h : Cert.Pre_finite_inputs.fn (F := Ideal) x0 x1 x2 x3 = (fun _ => 1#1)) :
    (∃ A0 : (⟨2, ![128, 16384]⟩ : Shape).Idx → ℝ, x0 = fun i => ((A0 i : ℝ) : EReal))
      ∧ (∃ A1 : (⟨2, ![128, 16384]⟩ : Shape).Idx → ℝ, x1 = fun i => ((A1 i : ℝ) : EReal)) := by
  have h0 := congrFun h ix0
  dsimp only [fn] at h0
  obtain ⟨h01, _⟩ := IntOp.andi_eq_one.1 h0
  obtain ⟨ha, hb⟩ := IntOp.andi_eq_one.1 h01
  exact ⟨array_real x0 fun i => real_of_abs_lt_inf (x0 i) (Host.reduce_andi_all _ _ _ _ ix0 ha i),
    array_real x1 fun i => real_of_abs_lt_inf (x1 i) (Host.reduce_andi_all _ _ _ _ ix0 hb i)⟩

end Cert.ShiftMse.Finite

end
-- ==== Proof.lean ====
/-
  The kernel and its reference compute one number: the mean over 128 rows of a softmax-weighted mixture, over 31
  shifts, of the mean squared error between a row of predictions and the row of targets padded by 15 zeros on each
  side and shifted.

  Both programs end with the same host operations on a [128, 31] array of per-shift mean squared errors (a gather of
  rows of the logits by the participant index, a softmax over the shifts, the weighted sum, the mean); that tail is
  carried as one function and never opened.  What differs is how the [128, 31] array is made.  The reference pads,
  gathers the 31 shifted copies, subtracts, squares and averages.  The kernel, per block of 16 rows, expands the
  square: ∑ a² − 2 ∑ a·p(s + ·) + ∑ p(s + ·)², and obtains the last sum for s = 0 … 30 by sliding a window one column
  at a time.  On finite inputs every value is a real number, the expansion and the sliding window are identities of
  the reals, and the two arrays agree entry by entry; finiteness is what the precondition gives.  The idealization
  pass rewrote nothing, so `preserves` is trivial; the three frames are the generated frame runs (the two kernels' through a patched copy of the generated module).
-/
import proofs.«144521_j1151051236044_2_alg».proof.Defs
import proofs.«144521_j1151051236044_2_alg».proof.Proof.Gen.Kernel
import proofs.«144521_j1151051236044_2_alg».proof.Proof.Gen.Kernel.Skeleton
import proofs.«144521_j1151051236044_2_alg».proof.Proof.Gen.Kernel.Launch
import proofs.«144521_j1151051236044_2_alg».proof.Proof.Gen.Kernel.Points
import proofs.«144521_j1151051236044_2_alg».proof.Proof.KernelFrame
import proofs.«144521_j1151051236044_2_alg».proof.Proof.Gen.KernelIdeal
import proofs.«144521_j1151051236044_2_alg».proof.Proof.Gen.KernelIdeal.Skeleton
import proofs.«144521_j1151051236044_2_alg».proof.Proof.Gen.KernelIdeal.Launch
import proofs.«144521_j1151051236044_2_alg».proof.Proof.Gen.KernelIdeal.Points
import proofs.«144521_j1151051236044_2_alg».proof.Proof.KernelIdealFrame
import proofs.«144521_j1151051236044_2_alg».proof.Proof.Gen.ReferenceIdeal
import proofs.«144521_j1151051236044_2_alg».proof.Proof.Gen.Pre_finite_inputs
import proofs.«144521_j1151051236044_2_alg».proof.Proof.Gen.ReferenceIdeal.Run
import proofs.«144521_j1151051236044_2_alg».proof.Proof.Gen.ReferenceIdeal.Read
import proofs.«144521_j1151051236044_2_alg».proof.Proof.KernelArray
import proofs.«144521_j1151051236044_2_alg».proof.Proof.TailOps
import proofs.«144521_j1151051236044_2_alg».proof.Proof.RefArray
import proofs.«144521_j1151051236044_2_alg».proof.Proof.Tail
import proofs.«144521_j1151051236044_2_alg».proof.Proof.Finite
import Idealize.ShloMosaic.Adequacy
import Idealize.ShloMosaic.Init

noncomputable section

namespace Cert.Proof

open Idealize.ShloMosaic Idealize.ShloMosaic.TcCoe Idealize.SL.Sem Cert.ShiftMse

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- On finite inputs both programs end at the shared tail applied to the array of mean squared errors. -/
theorem algebraic : Cert.algebraic_KernelIdeal_ReferenceIdeal := by
  intro m ρ m' ρ' hpre hagree
  have hreal := fun c => Cert.ShiftMse.Finite.real_of_pre _ _ _ _ (hpre c)
  choose A0 hA0 using fun c => (hreal c).1
  choose A1 hA1 using fun c => (hreal c).2
  refine ⟨fun c => Cert.ShiftMse.Tail.tailFn (mseArr (A0 c) (A1 c))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.GenP.run_main m ρ)
    · refine ((h c).2 Cert.KernelIdeal.main_v22 (Pipeline.mem_restRefs_of Cert.KernelIdeal.main_v22 (by decide) (by decide))).trans ?_
      refine (Cert.ShiftMse.KernelTail.kernel_tail_of (Cert.KernelIdeal.GenP.V0 m) (Cert.KernelIdeal.GenP.dats m) c).trans ?_
      rw [Cert.ShiftMse.Kernel.final m c (A0 c) (A1 c) (hA0 c) (hA1 c)]
      rfl
    · exact ((h c).1 0).trans (((Cert.KernelIdeal.GenP.dats m 0 c).arrAt_in 0 rfl _).trans
        ((Cert.KernelIdeal.GenP.A_eq m c 0).trans (Cert.KernelIdeal.GenP.V_main_arg0 m c)))
    · exact ((h c).1 1).trans (((Cert.KernelIdeal.GenP.dats m 0 c).arrAt_in 1 rfl _).trans
        ((Cert.KernelIdeal.GenP.A_eq m c 1).trans (Cert.KernelIdeal.GenP.V_main_arg1 m c)))
    · exact ((h c).2 Cert.KernelIdeal.main_arg2 (Pipeline.mem_restRefs_of Cert.KernelIdeal.main_arg2 (by decide) (by decide))).trans
        (Cert.KernelIdeal.GenP.W_main_arg2 m (Cert.KernelIdeal.GenP.dats m) c)
    · exact ((h c).2 Cert.KernelIdeal.main_arg3 (Pipeline.mem_restRefs_of Cert.KernelIdeal.main_arg3 (by decide) (by decide))).trans
        (Cert.KernelIdeal.GenP.W_main_arg3 m (Cert.KernelIdeal.GenP.dats m) c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v43_eq, Cert.ShiftMse.Tail.ref_tail, (hagree c).1, (hagree c).2.1, (hagree c).2.2.1,
      (hagree c).2.2.2, hA0 c, hA1 c, Cert.ShiftMse.Ref.mse_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
